-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4x41x16x44x3 : Shape := ⟨6, ![4, 4, 41, 16, 44, 3]⟩
abbrev S4x4x41x16x44 : Shape := ⟨5, ![4, 4, 41, 16, 44]⟩
abbrev S4x4x41x16x44x80 : Shape := ⟨6, ![4, 4, 41, 16, 44, 80]⟩
abbrev S_ : Shape := ⟨0, ![]⟩

class Facts : Prop where
  bcast_S_S4x4x41x16x44x3 : S_.BroadcastsInDim S4x4x41x16x44x3 (![] : Fin 0 → Fin S4x4x41x16x44x3.rank)
  reducesTo_S4x4x41x16x44x3_S_d0_1_2_3_4_5 : S4x4x41x16x44x3.ReducesTo [0, 1, 2, 3, 4, 5] S_
  h_S_ : 0 < S_.numel
  bcast_S_S4x4x41x16x44x80 : S_.BroadcastsInDim S4x4x41x16x44x80 (![] : Fin 0 → Fin S4x4x41x16x44x80.rank)
  reducesTo_S4x4x41x16x44x80_S_d0_1_2_3_4_5 : S4x4x41x16x44x80.ReducesTo [0, 1, 2, 3, 4, 5] S_

variable [Facts]

def fn {F : FTy → Type} [FloatOps F] (main_arg0 : FVec F S4x4x41x16x44x3 .f32) (main_arg1 : IVec S4x4x41x16x44 1) (main_arg2 : FVec F S4x4x41x16x44x80 .f32) : IVec S_ 1 :=
  let main_v0 : FVec F S4x4x41x16x44x3 .f32 := Host.absf main_arg0
  let main_cst : FVec F S_ .f32 := constant S_ .f32 0x7F800000#32
  let main_v1 : FVec F S4x4x41x16x44x3 .f32 := broadcastInDim S4x4x41x16x44x3 ![] bcast_S_S4x4x41x16x44x3 main_cst
  let main_v2 : IVec S4x4x41x16x44x3 1 := cmpf .olt main_v0 main_v1
  let main_c : IVec S_ 1 := constantI S_ 1 1#1
  let main_v3 : IVec S_ 1 := (fun x v => Host.reduce IntOp.andi x v reducesTo_S4x4x41x16x44x3_S_d0_1_2_3_4_5 h_S_) main_v2 main_c
  let main_v4 : FVec F S4x4x41x16x44x80 .f32 := Host.absf main_arg2
  let main_cst_0 : FVec F S_ .f32 := constant S_ .f32 0x7F800000#32
  let main_v5 : FVec F S4x4x41x16x44x80 .f32 := broadcastInDim S4x4x41x16x44x80 ![] bcast_S_S4x4x41x16x44x80 main_cst_0
  let main_v6 : IVec S4x4x41x16x44x80 1 := cmpf .olt main_v4 main_v5
  let main_c_1 : IVec S_ 1 := constantI S_ 1 1#1
  let main_v7 : IVec S_ 1 := (fun x v => Host.reduce IntOp.andi x v reducesTo_S4x4x41x16x44x80_S_d0_1_2_3_4_5 h_S_) main_v6 main_c_1
  let main_v8 : IVec S_ 1 := andi main_v3 main_v7
  main_v8
-- ==== Kernel.lean ====
abbrev S4x4x41x16x44x3 : Shape := ⟨6, ![4, 4, 41, 16, 44, 3]⟩
abbrev S4x4x41x16x44 : Shape := ⟨5, ![4, 4, 41, 16, 44]⟩
abbrev S4x4x41x16x44x80 : Shape := ⟨6, ![4, 4, 41, 16, 44, 80]⟩
abbrev S3 : Shape := ⟨1, ![3]⟩
abbrev S_ : Shape := ⟨0, ![]⟩
abbrev S1x1x1x1x1x3 : Shape := ⟨6, ![1, 1, 1, 1, 1, 3]⟩
abbrev S4x4x41x16x44x1 : Shape := ⟨6, ![4, 4, 41, 16, 44, 1]⟩
abbrev S4x115456 : Shape := ⟨2, ![4, 115456]⟩
abbrev S4x115456x80 : Shape := ⟨3, ![4, 115456, 80]⟩
abbrev S4x116736 : Shape := ⟨2, ![4, 116736]⟩
abbrev S4x116736x80 : Shape := ⟨3, ![4, 116736, 80]⟩
abbrev S4x1x116736 : Shape := ⟨3, ![4, 1, 116736]⟩
abbrev S4x40000x80 : Shape := ⟨3, ![4, 40000, 80]⟩
abbrev S1x1x2048 : Shape := ⟨3, ![1, 1, 2048]⟩
abbrev S1x2048x80 : Shape := ⟨3, ![1, 2048, 80]⟩
abbrev S1x2000x80 : Shape := ⟨3, ![1, 2000, 80]⟩
abbrev S2000x80 : Shape := ⟨2, ![2000, 80]⟩
abbrev S1x2048 : Shape := ⟨2, ![1, 2048]⟩
abbrev S2048x80 : Shape := ⟨2, ![2048, 80]⟩
abbrev S2000x2048 : Shape := ⟨2, ![2000, 2048]⟩
abbrev S4x200x200x80 : Shape := ⟨4, ![4, 200, 200, 80]⟩
abbrev S4x80x200x200 : Shape := ⟨4, ![4, 80, 200, 200]⟩

abbrev nBuf : Space → Nat
  | .hbm => 67
  | .vmem => 7
  | .smem => 0
  | _ => 0

abbrev bufTy : (tb : Table) → Fin (tcTables nBuf tb) → BufTy
  | .hbm, ⟨0, _⟩ => ⟨S4x4x41x16x44x3, .f32⟩
  | .hbm, ⟨1, _⟩ => ⟨S4x4x41x16x44, .i1⟩
  | .hbm, ⟨2, _⟩ => ⟨S4x4x41x16x44x80, .f32⟩
  | .hbm, ⟨3, _⟩ => ⟨S3, .f32⟩
  | .hbm, ⟨4, _⟩ => ⟨S3, .f32⟩
  | .hbm, ⟨5, _⟩ => ⟨S_, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S1x1x1x1x1x3, .f32⟩
  | .hbm, ⟨10, _⟩ => ⟨S4x4x41x16x44x3, .f32⟩
  | .hbm, ⟨11, _⟩ => ⟨S4x4x41x16x44x3, .f32⟩
  | .hbm, ⟨12, _⟩ => ⟨S1x1x1x1x1x3, .f32⟩
  | .hbm, ⟨13, _⟩ => ⟨S4x4x41x16x44x3, .f32⟩
  | .hbm, ⟨14, _⟩ => ⟨S4x4x41x16x44x3, .f32⟩
  | .hbm, ⟨15, _⟩ => ⟨S4x4x41x16x44x3, .i32⟩
  | .hbm, ⟨16, _⟩ => ⟨S4x4x41x16x44x1, .i32⟩
  | .hbm, ⟨17, _⟩ => ⟨S4x4x41x16x44, .i32⟩
  | .hbm, ⟨18, _⟩ => ⟨S4x4x41x16x44x1, .i32⟩
  | .hbm, ⟨19, _⟩ => ⟨S4x4x41x16x44, .i32⟩
  | .hbm, ⟨20, _⟩ => ⟨S4x4x41x16x44x1, .i32⟩
  | .hbm, ⟨21, _⟩ => ⟨S4x4x41x16x44, .i32⟩
  | .hbm, ⟨22, _⟩ => ⟨S_, .i32⟩
  | .hbm, ⟨23, _⟩ => ⟨S4x4x41x16x44, .i32⟩
  | .hbm, ⟨24, _⟩ => ⟨S4x4x41x16x44, .i1⟩
  | .hbm, ⟨25, _⟩ => ⟨S_, .i32⟩
  | .hbm, ⟨26, _⟩ => ⟨S4x4x41x16x44, .i32⟩
  | .hbm, ⟨27, _⟩ => ⟨S4x4x41x16x44, .i1⟩
  | .hbm, ⟨28, _⟩ => ⟨S4x4x41x16x44, .i1⟩
  | .hbm, ⟨29, _⟩ => ⟨S_, .i32⟩
  | .hbm, ⟨30, _⟩ => ⟨S4x4x41x16x44, .i32⟩
  | .hbm, ⟨31, _⟩ => ⟨S4x4x41x16x44, .i1⟩
  | .hbm, ⟨32, _⟩ => ⟨S4x4x41x16x44, .i1⟩
  | .hbm, ⟨33, _⟩ => ⟨S_, .i32⟩
  | .hbm, ⟨34, _⟩ => ⟨S4x4x41x16x44, .i32⟩
  | .hbm, ⟨35, _⟩ => ⟨S4x4x41x16x44, .i1⟩
  | .hbm, ⟨36, _⟩ => ⟨S4x4x41x16x44, .i1⟩
  | .hbm, ⟨37, _⟩ => ⟨S_, .i32⟩
  | .hbm, ⟨38, _⟩ => ⟨S4x4x41x16x44, .i32⟩
  | .hbm, ⟨39, _⟩ => ⟨S4x4x41x16x44, .i1⟩
  | .hbm, ⟨40, _⟩ => ⟨S4x4x41x16x44, .i1⟩
  | .hbm, ⟨41, _⟩ => ⟨S_, .i32⟩
  | .hbm, ⟨42, _⟩ => ⟨S4x4x41x16x44, .i32⟩
  | .hbm, ⟨43, _⟩ => ⟨S4x4x41x16x44, .i1⟩
  | .hbm, ⟨44, _⟩ => ⟨S4x4x41x16x44, .i1⟩
  | .hbm, ⟨45, _⟩ => ⟨S4x4x41x16x44, .i1⟩
  | .hbm, ⟨46, _⟩ => ⟨S_, .i32⟩
  | .hbm, ⟨47, _⟩ => ⟨S4x4x41x16x44, .i32⟩
  | .hbm, ⟨48, _⟩ => ⟨S4x4x41x16x44, .i32⟩
  | .hbm, ⟨49, _⟩ => ⟨S4x4x41x16x44, .i32⟩
  | .hbm, ⟨50, _⟩ => ⟨S_, .i32⟩
  | .hbm, ⟨51, _⟩ => ⟨S_, .i32⟩
  | .hbm, ⟨52, _⟩ => ⟨S4x4x41x16x44, .i32⟩
  | .hbm, ⟨53, _⟩ => ⟨S4x4x41x16x44, .i32⟩
  | .hbm, ⟨54, _⟩ => ⟨S4x115456, .i32⟩
  | .hbm, ⟨55, _⟩ => ⟨S4x115456x80, .f32⟩
  | .hbm, ⟨56, _⟩ => ⟨S4x115456x80, .bf16⟩
  | .hbm, ⟨57, _⟩ => ⟨S_, .i32⟩
  | .hbm, ⟨58, _⟩ => ⟨S_, .i32⟩
  | .hbm, ⟨59, _⟩ => ⟨S4x116736, .i32⟩
  | .hbm, ⟨60, _⟩ => ⟨S_, .i32⟩
  | .hbm, ⟨61, _⟩ => ⟨S_, .bf16⟩
  | .hbm, ⟨62, _⟩ => ⟨S4x116736x80, .bf16⟩
  | .hbm, ⟨63, _⟩ => ⟨S4x1x116736, .i32⟩
  | .hbm, ⟨64, _⟩ => ⟨S4x40000x80, .f32⟩
  | .hbm, ⟨65, _⟩ => ⟨S4x200x200x80, .f32⟩
  | .hbm, ⟨66, _⟩ => ⟨S4x80x200x200, .f32⟩
  | .local _ .vmem, ⟨0, _⟩ => ⟨S1x1x2048, .i32⟩
  | .local _ .vmem, ⟨1, _⟩ => ⟨S1x1x2048, .i32⟩
  | .local _ .vmem, ⟨2, _⟩ => ⟨S1x2048x80, .bf16⟩
  | .local _ .vmem, ⟨3, _⟩ => ⟨S1x2048x80, .bf16⟩
  | .local _ .vmem, ⟨4, _⟩ => ⟨S1x2000x80, .f32⟩
  | .local _ .vmem, ⟨5, _⟩ => ⟨S1x2000x80, .f32⟩
  | .local _ .vmem, ⟨6, _⟩ => ⟨S2000x80, .f32⟩
  | _, _ => ⟨S4x4x41x16x44x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_8 : Ref sig .tc := ⟨.hbm, 50, rfl⟩
abbrev main_call0_v0 : Ref sig .tc := ⟨.hbm, 51, rfl⟩
abbrev main_call0_v1 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_call1_v0 : Ref sig .tc := ⟨.hbm, 58, rfl⟩
abbrev main_v41 : Ref sig .tc := ⟨.hbm, 59, rfl⟩
abbrev main_c_10 : Ref sig .tc := ⟨.hbm, 60, rfl⟩
abbrev main_call2_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 20, 57], ![false, false, false]⟩

def k0_cond2 (i : grid0.Coords) : BitVec 1 :=
  let arg2 : BitVec 32 := BitVec.ofNat 32 (i 2).val
  let c56_i32 : BitVec 32 := 56#32
  let v22 : BitVec 1 := Scalar.cmpi .eq arg2 c56_i32
  let v23 : BitVec 32 := Scalar.extui v22
  let c0_i32_10 : BitVec 32 := 0#32
  let v24 : BitVec 1 := Scalar.cmpi .ne v23 c0_i32_10
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x80 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2000x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S3 : S_.BroadcastsInDim S3 (![] : Fin 0 → Fin S3.rank)
  bcast_S3_S1x1x1x1x1x3_5 : S3.BroadcastsInDim S1x1x1x1x1x3 (![5] : Fin 1 → Fin S1x1x1x1x1x3.rank)
  bcast_S1x1x1x1x1x3_S4x4x41x16x44x3_0_1_2_3_4_5 : S1x1x1x1x1x3.BroadcastsInDim S4x4x41x16x44x3 (![0, 1, 2, 3, 4, 5] : Fin 6 → Fin S4x4x41x16x44x3.rank)
  slices_S4x4x41x16x44x3_S4x4x41x16x44x1_0_0_0_0_0_0 : S4x4x41x16x44x3.Slices ![0, 0, 0, 0, 0, 0] S4x4x41x16x44x1
  shapeCasts_S4x4x41x16x44x1_S4x4x41x16x44 : S4x4x41x16x44x1.ShapeCasts S4x4x41x16x44
  slices_S4x4x41x16x44x3_S4x4x41x16x44x1_0_0_0_0_0_1 : S4x4x41x16x44x3.Slices ![0, 0, 0, 0, 0, 1] S4x4x41x16x44x1
  slices_S4x4x41x16x44x3_S4x4x41x16x44x1_0_0_0_0_0_2 : S4x4x41x16x44x3.Slices ![0, 0, 0, 0, 0, 2] S4x4x41x16x44x1
  bcast_S_S4x4x41x16x44 : S_.BroadcastsInDim S4x4x41x16x44 (![] : Fin 0 → Fin S4x4x41x16x44.rank)
  shapeCasts_S4x4x41x16x44_S4x115456 : S4x4x41x16x44.ShapeCasts S4x115456
  shapeCasts_S4x4x41x16x44x80_S4x115456x80 : S4x4x41x16x44x80.ShapeCasts S4x115456x80
  bitsLt_bf16_f32 : FTy.bits .bf16 < FTy.bits .f32
  pads_S4x115456_S4x116736_000_012800 : S4x115456.Pads (![0, 0] : Fin 2 → Nat) ![0, 1280] ![0, 0] S4x116736
  h_S_ : 0 < S_.numel
  pads_S4x115456x80_S4x116736x80_000_012800_000 : S4x115456x80.Pads (![0, 0, 0] : Fin 3 → Nat) ![0, 1280, 0] ![0, 0, 0] S4x116736x80
  shapeCasts_S4x116736_S4x1x116736 : S4x116736.ShapeCasts S4x1x116736
  inb_S2000x80_S2000x80_0_0 : ∀ a, (![0, 0] : Fin 2 → Nat) a + S2000x80.size a ≤ S2000x80.size a
  h_S2000x80 : 0 < S2000x80.numel
  shapeCasts_S2000x80_S2000x80 : S2000x80.ShapeCasts S2000x80
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x2048x80_S1x2048x80_0_0_0 : ∀ a, (![0, 0, 0] : Fin 3 → Nat) a + S1x2048x80.size a ≤ S1x2048x80.size a
  h_S1x2048x80 : 0 < S1x2048x80.numel
  shapeCasts_S1x2048x80_S2048x80 : S1x2048x80.ShapeCasts S2048x80
  iota_S2000x2048_d0_w32 : S2000x2048.Iotas .tc 32 [0]
  broadcasts_S1x2048_S2000x2048 : S1x2048.Broadcasts S2000x2048
  natLt_1_32 : 1 < 32
  inb_S1x2000x80_S1x2000x80_0_0_0 : ∀ a, (![0, 0, 0] : Fin 3 → Nat) a + S1x2000x80.size a ≤ S1x2000x80.size a
  h_S1x2000x80 : 0 < S1x2000x80.numel
  shapeCasts_S1x2000x80_S2000x80 : S1x2000x80.ShapeCasts S2000x80
  shapeCasts_S2000x80_S1x2000x80 : S2000x80.ShapeCasts S1x2000x80
  shapeCasts_S4x40000x80_S4x200x200x80 : S4x40000x80.ShapeCasts S4x200x200x80
  transposes_S4x200x200x80_S4x80x200x200_0_3_1_2 : S4x200x200x80.Transposes [0, 3, 1, 2] S4x80x200x200
  dot_S2000x2048_S2048x80_S2000x80_1_0_0_1_n_n_wf : DotDims.WF S2000x2048 S2048x80 S2000x80 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048.size a ≤ S4x1x116736.size a
  hwx0_0 : ∀ i : grid0.Coords, EltTy.bits .i32 = 32 ∨ (Rect.block (s := S4x1x116736) S1x1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x80.size a ≤ S4x116736x80.size a
  hwx0_1 : ∀ i : grid0.Coords, EltTy.bits .bf16 = 32 ∨ (Rect.block (s := S4x116736x80) S1x2048x80.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2000x80.size a ≤ S4x40000x80.size a
  hwx0_2 : ∀ i : grid0.Coords, EltTy.bits .f32 = 32 ∨ (Rect.block (s := S4x40000x80) S1x2000x80.size (cc0_transform_2 i) (hinb0_2 i)).WholeWords (EltTy.packing .f32)

variable [Facts₀]

def dot_S2000x2048_S2048x80_S2000x80_1_0_0_1_n_n : DotDims S2000x2048 S2048x80 S2000x80 where
  lhsContracting := [1]
  rhsContracting := [0]
  lhsNonContracting := [0]
  rhsNonContracting := [1]
  lhsBatch := []
  rhsBatch := []
  wf := dot_S2000x2048_S2048x80_S2000x80_1_0_0_1_n_n_wf

abbrev win0_0 : Pipeline.Window sig grid0 :=
  Pipeline.Window.ofSpec (Memref.whole main_v43) S1x1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S1x2048x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x2000x80.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4x41x16x44x3 : Shape := ⟨6, ![4, 4, 41, 16, 44, 3]⟩
abbrev S4x4x41x16x44 : Shape := ⟨5, ![4, 4, 41, 16, 44]⟩
abbrev S4x4x41x16x44x80 : Shape := ⟨6, ![4, 4, 41, 16, 44, 80]⟩
abbrev S3 : Shape := ⟨1, ![3]⟩
abbrev S_ : Shape := ⟨0, ![]⟩
abbrev S1x1x1x1x1x3 : Shape := ⟨6, ![1, 1, 1, 1, 1, 3]⟩
abbrev S4x4x41x16x44x1 : Shape := ⟨6, ![4, 4, 41, 16, 44, 1]⟩
abbrev S4 : Shape := ⟨1, ![4]⟩
abbrev S4x1x1x1x1 : Shape := ⟨5, ![4, 1, 1, 1, 1]⟩
abbrev S461824x80 : Shape := ⟨2, ![461824, 80]⟩
abbrev S461824 : Shape := ⟨1, ![461824]⟩
abbrev S160001x80 : Shape := ⟨2, ![160001, 80]⟩
abbrev S461824x1 : Shape := ⟨2, ![461824, 1]⟩
abbrev S160000x80 : Shape := ⟨2, ![160000, 80]⟩
abbrev S4x200x200x1x80 : Shape := ⟨5, ![4, 200, 200, 1, 80]⟩
abbrev S4x1x80x200x200 : Shape := ⟨5, ![4, 1, 80, 200, 200]⟩
abbrev S4x80x200x200 : Shape := ⟨4, ![4, 80, 200, 200]⟩

abbrev nBuf : Space → Nat
  | .hbm => 78
  | .vmem => 0
  | .smem => 0
  | _ => 0

abbrev bufTy : (tb : Table) → Fin (tcTables nBuf tb) → BufTy
  | .hbm, ⟨0, _⟩ => ⟨S4x4x41x16x44x3, .f32⟩
  | .hbm, ⟨1, _⟩ => ⟨S4x4x41x16x44, .i1⟩
  | .hbm, ⟨2, _⟩ => ⟨S4x4x41x16x44x80, .f32⟩
  | .hbm, ⟨3, _⟩ => ⟨S3, .f32⟩
  | .hbm, ⟨4, _⟩ => ⟨S3, .f32⟩
  | .hbm, ⟨5, _⟩ => ⟨S_, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S1x1x1x1x1x3, .f32⟩
  | .hbm, ⟨10, _⟩ => ⟨S4x4x41x16x44x3, .f32⟩
  | .hbm, ⟨11, _⟩ => ⟨S4x4x41x16x44x3, .f32⟩
  | .hbm, ⟨12, _⟩ => ⟨S1x1x1x1x1x3, .f32⟩
  | .hbm, ⟨13, _⟩ => ⟨S4x4x41x16x44x3, .f32⟩
  | .hbm, ⟨14, _⟩ => ⟨S4x4x41x16x44x3, .f32⟩
  | .hbm, ⟨15, _⟩ => ⟨S4x4x41x16x44x3, .i32⟩
  | .hbm, ⟨16, _⟩ => ⟨S4x4x41x16x44x1, .i32⟩
  | .hbm, ⟨17, _⟩ => ⟨S4x4x41x16x44, .i32⟩
  | .hbm, ⟨18, _⟩ => ⟨S4x4x41x16x44x1, .i32⟩
  | .hbm, ⟨19, _⟩ => ⟨S4x4x41x16x44, .i32⟩
  | .hbm, ⟨20, _⟩ => ⟨S4x4x41x16x44x1, .i32⟩
  | .hbm, ⟨21, _⟩ => ⟨S4x4x41x16x44, .i32⟩
  | .hbm, ⟨22, _⟩ => ⟨S_, .i32⟩
  | .hbm, ⟨23, _⟩ => ⟨S4x4x41x16x44, .i32⟩
  | .hbm, ⟨24, _⟩ => ⟨S4x4x41x16x44, .i1⟩
  | .hbm, ⟨25, _⟩ => ⟨S_, .i32⟩
  | .hbm, ⟨26, _⟩ => ⟨S4x4x41x16x44, .i32⟩
  | .hbm, ⟨27, _⟩ => ⟨S4x4x41x16x44, .i1⟩
  | .hbm, ⟨28, _⟩ => ⟨S4x4x41x16x44, .i1⟩
  | .hbm, ⟨29, _⟩ => ⟨S_, .i32⟩
  | .hbm, ⟨30, _⟩ => ⟨S4x4x41x16x44, .i32⟩
  | .hbm, ⟨31, _⟩ => ⟨S4x4x41x16x44, .i1⟩
  | .hbm, ⟨32, _⟩ => ⟨S4x4x41x16x44, .i1⟩
  | .hbm, ⟨33, _⟩ => ⟨S_, .i32⟩
  | .hbm, ⟨34, _⟩ => ⟨S4x4x41x16x44, .i32⟩
  | .hbm, ⟨35, _⟩ => ⟨S4x4x41x16x44, .i1⟩
  | .hbm, ⟨36, _⟩ => ⟨S4x4x41x16x44, .i1⟩
  | .hbm, ⟨37, _⟩ => ⟨S_, .i32⟩
  | .hbm, ⟨38, _⟩ => ⟨S4x4x41x16x44, .i32⟩
  | .hbm, ⟨39, _⟩ => ⟨S4x4x41x16x44, .i1⟩
  | .hbm, ⟨40, _⟩ => ⟨S4x4x41x16x44, .i1⟩
  | .hbm, ⟨41, _⟩ => ⟨S_, .i32⟩
  | .hbm, ⟨42, _⟩ => ⟨S4x4x41x16x44, .i32⟩
  | .hbm, ⟨43, _⟩ => ⟨S4x4x41x16x44, .i1⟩
  | .hbm, ⟨44, _⟩ => ⟨S4x4x41x16x44, .i1⟩
  | .hbm, ⟨45, _⟩ => ⟨S4x4x41x16x44, .i1⟩
  | .hbm, ⟨46, _⟩ => ⟨S4, .i32⟩
  | .hbm, ⟨47, _⟩ => ⟨S4x1x1x1x1, .i32⟩
  | .hbm, ⟨48, _⟩ => ⟨S_, .i32⟩
  | .hbm, ⟨49, _⟩ => ⟨S4x1x1x1x1, .i32⟩
  | .hbm, ⟨50, _⟩ => ⟨S4x1x1x1x1, .i32⟩
  | .hbm, ⟨51, _⟩ => ⟨S4x4x41x16x44, .i32⟩
  | .hbm, ⟨52, _⟩ => ⟨S4x4x41x16x44, .i32⟩
  | .hbm, ⟨53, _⟩ => ⟨S_, .i32⟩
  | .hbm, ⟨54, _⟩ => ⟨S4x4x41x16x44, .i32⟩
  | .hbm, ⟨55, _⟩ => ⟨S4x4x41x16x44, .i32⟩
  | .hbm, ⟨56, _⟩ => ⟨S4x4x41x16x44, .i32⟩
  | .hbm, ⟨57, _⟩ => ⟨S_, .i32⟩
  | .hbm, ⟨58, _⟩ => ⟨S4x4x41x16x44, .i32⟩
  | .hbm, ⟨59, _⟩ => ⟨S4x4x41x16x44, .i32⟩
  | .hbm, ⟨60, _⟩ => ⟨S4x4x41x16x44, .i32⟩
  | .hbm, ⟨61, _⟩ => ⟨S_, .i32⟩
  | .hbm, ⟨62, _⟩ => ⟨S_, .i32⟩
  | .hbm, ⟨63, _⟩ => ⟨S4x4x41x16x44, .i32⟩
  | .hbm, ⟨64, _⟩ => ⟨S4x4x41x16x44, .i32⟩
  | .hbm, ⟨65, _⟩ => ⟨S461824x80, .f32⟩
  | .hbm, ⟨66, _⟩ => ⟨S461824, .i32⟩
  | .hbm, ⟨67, _⟩ => ⟨S_, .f32⟩
  | .hbm, ⟨68, _⟩ => ⟨S160001x80, .f32⟩
  | .hbm, ⟨69, _⟩ => ⟨S461824x1, .i32⟩
  | .hbm, ⟨70, _⟩ => ⟨S160001x80, .f32⟩
  | .hbm, ⟨71, _⟩ => ⟨S160000x80, .f32⟩
  | .hbm, ⟨72, _⟩ => ⟨S4x200x200x1x80, .f32⟩
  | .hbm, ⟨73, _⟩ => ⟨S4x1x80x200x200, .f32⟩
  | .hbm, ⟨74, _⟩ => ⟨S4x80x200x200, .f32⟩
  | .hbm, ⟨75, _⟩ => ⟨S_, .f32⟩
  | .hbm, ⟨76, _⟩ => ⟨S4x80x200x200, .f32⟩
  | .hbm, ⟨77, _⟩ => ⟨S4x80x200x200, .f32⟩
  | _, _ => ⟨S4x4x41x16x44x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_10 : Ref sig .tc := ⟨.hbm, 61, rfl⟩
abbrev main_call0_v0 : Ref sig .tc := ⟨.hbm, 62, rfl⟩
abbrev main_call0_v1 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]

class Facts₀ : Prop where
  bcast_S_S3 : S_.BroadcastsInDim S3 (![] : Fin 0 → Fin S3.rank)
  bcast_S3_S1x1x1x1x1x3_5 : S3.BroadcastsInDim S1x1x1x1x1x3 (![5] : Fin 1 → Fin S1x1x1x1x1x3.rank)
  bcast_S1x1x1x1x1x3_S4x4x41x16x44x3_0_1_2_3_4_5 : S1x1x1x1x1x3.BroadcastsInDim S4x4x41x16x44x3 (![0, 1, 2, 3, 4, 5] : Fin 6 → Fin S4x4x41x16x44x3.rank)
  slices_S4x4x41x16x44x3_S4x4x41x16x44x1_0_0_0_0_0_0 : S4x4x41x16x44x3.Slices ![0, 0, 0, 0, 0, 0] S4x4x41x16x44x1
  shapeCasts_S4x4x41x16x44x1_S4x4x41x16x44 : S4x4x41x16x44x1.ShapeCasts S4x4x41x16x44
  slices_S4x4x41x16x44x3_S4x4x41x16x44x1_0_0_0_0_0_1 : S4x4x41x16x44x3.Slices ![0, 0, 0, 0, 0, 1] S4x4x41x16x44x1
  slices_S4x4x41x16x44x3_S4x4x41x16x44x1_0_0_0_0_0_2 : S4x4x41x16x44x3.Slices ![0, 0, 0, 0, 0, 2] S4x4x41x16x44x1
  bcast_S_S4x4x41x16x44 : S_.BroadcastsInDim S4x4x41x16x44 (![] : Fin 0 → Fin S4x4x41x16x44.rank)
  shapeCasts_S4_S4x1x1x1x1 : S4.ShapeCasts S4x1x1x1x1
  bcast_S_S4x1x1x1x1 : S_.BroadcastsInDim S4x1x1x1x1 (![] : Fin 0 → Fin S4x1x1x1x1.rank)
  bcast_S4x1x1x1x1_S4x4x41x16x44_0_1_2_3_4 : S4x1x1x1x1.BroadcastsInDim S4x4x41x16x44 (![0, 1, 2, 3, 4] : Fin 5 → Fin S4x4x41x16x44.rank)
  shapeCasts_S4x4x41x16x44x80_S461824x80 : S4x4x41x16x44x80.ShapeCasts S461824x80
  shapeCasts_S4x4x41x16x44_S461824 : S4x4x41x16x44.ShapeCasts S461824
  bcast_S_S160001x80 : S_.BroadcastsInDim S160001x80 (![] : Fin 0 → Fin S160001x80.rank)
  bcast_S461824_S461824x1_0 : S461824.BroadcastsInDim S461824x1 (![0] : Fin 1 → Fin S461824x1.rank)
  slices_S160001x80_S160000x80_0_0 : S160001x80.Slices ![0, 0] S160000x80
  shapeCasts_S160000x80_S4x200x200x1x80 : S160000x80.ShapeCasts S4x200x200x1x80
  transposes_S4x200x200x1x80_S4x1x80x200x200_0_3_4_1_2 : S4x200x200x1x80.Transposes [0, 3, 4, 1, 2] S4x1x80x200x200
  shapeCasts_S4x1x80x200x200_S4x80x200x200 : S4x1x80x200x200.ShapeCasts S4x80x200x200
  bcast_S_S4x80x200x200 : S_.BroadcastsInDim S4x80x200x200 (![] : Fin 0 → Fin S4x80x200x200.rank)
  scatter_S160001x80_S461824x1_S461824x80_1_0_0_1_wf : ScatterDims.WF S160001x80 S461824x1 S461824x80 [1] [0] [0] 1

variable [Facts₀]

def scatter_S160001x80_S461824x1_S461824x80_1_0_0_1 : ScatterDims S160001x80 S461824x1 S461824x80 where
  updateWindowDims := [1]
  insertedWindowDims := [0]
  scatterDimsToOperandDims := [0]
  indexVectorDim := 1
  wf := scatter_S160001x80_S461824x1_S461824x80_1_0_0_1_wf

class Facts : Prop extends Facts₀ where

variable [Facts]
-- ==== Proof.Spec.lean ====
/-
  The specification of the voxel pooling result, stated once over neutral shapes and imported by both sides.

  A point is one of the 4·4·41·16·44 = 461824 camera-frustum samples; its three integer cell coordinates
  (gx, gy, gz) and its validity bit decide whether it is KEPT (cell inside the 200 × 200 × 1 grid, point
  valid). A kept point of batch b with cell (gx, gy) belongs to the global cell number b·40000 + gx·200 + gy.
  The result at (b, ch, gx, gy) is a quarter of the sum, over the points of that global cell, of feature ch.
-/
import Idealize.ShloMosaic.PureOps.Ideal
import Idealize.ShloMosaic.Lib.ValueIdx

noncomputable section

namespace Cert.Spec

open Idealize.ShloMosaic Idealize.ShloMosaic.ValueIdx

/-- The points, the features and the result. -/
abbrev SP : Shape := ⟨5, ![4, 4, 41, 16, 44]⟩
abbrev SX : Shape := ⟨6, ![4, 4, 41, 16, 44, 80]⟩
abbrev SO : Shape := ⟨4, ![4, 80, 200, 200]⟩
/-- The features with the points flattened. -/
abbrev SX2 : Shape := ⟨2, ![461824, 80]⟩

/-- The point with a flat (row-major) number. -/
def ptOf (n : Fin 461824) : SP.Idx := SP.rowMajor.symm n

/-- Point `q` of batch `b` (each batch has 4·41·16·44 = 115456 points), as a flat point number. -/
def flat (b : Fin 4) (q : ℕ) (h : q < 115456) : Fin 461824 := ⟨b.val * 115456 + q, by have := b.isLt; omega⟩

section
variable (gx gy gz : SP.Idx → BitVec 32) (vm : SP.Idx → BitVec 1)

/-- The kept bit of a point, as both programs compute it: six signed comparisons and the validity bit, joined by `and`. -/
def kept (p : SP.Idx) : BitVec 1 :=
  IntOp.andi (IntOp.andi (IntOp.andi (IntOp.andi (IntOp.andi (IntOp.andi
    (IntOp.cmpi .sge (gx p) 0#32) (IntOp.cmpi .slt (gx p) 200#32))
    (IntOp.cmpi .sge (gy p) 0#32)) (IntOp.cmpi .slt (gy p) 200#32))
    (IntOp.cmpi .sge (gz p) 0#32)) (IntOp.cmpi .slt (gz p) 1#32)) (vm p)

/-- The word the kernel compares against a voxel number: the cell number inside the batch, or -1 for a dropped point. -/
def fidW (p : SP.Idx) : BitVec 32 :=
  Scalar.select (kept gx gy gz vm p) (IntOp.addi (IntOp.muli (gx p) 200#32) (gy p)) 4294967295#32

/-- The word the reference scatters by: the global cell number, or the dummy row 160000 for a dropped point. -/
def segW (p : SP.Idx) : BitVec 32 :=
  Scalar.select (kept gx gy gz vm p)
    (IntOp.addi (IntOp.muli (IntOp.addi (IntOp.muli (IntOp.addi (IntOp.muli (BitVec.ofNat 32 (p 0).val) 200#32) (gx p)) 200#32) (gy p)) 1#32) (gz p))
    160000#32

/-- The global cell number of a kept point; none for a dropped one. -/
def cell (p : SP.Idx) : Option ℕ :=
  if kept gx gy gz vm p = 1#1 then some ((p 0).val * 40000 + ((gx p).toNat * 200 + (gy p).toNat)) else none

/-- The same by the flat point number. -/
def cellF (n : Fin 461824) : Option ℕ := cell gx gy gz vm (ptOf n)

variable (x : SX.Idx → EReal)

/-- The features with the points flattened (row-major): row n is point number n. -/
def X2 : SX2.Idx → EReal := shapeCast SX2 x

/-- The pooled sum of global cell `g` at feature `ch`. -/
def pooled (g : ℕ) (ch : Fin 80) : EReal :=
  ∑ n : Fin 461824, if cellF gx gy gz vm n = some g then X2 x (ix2 n ch) else 0

/-- THE RESULT: a quarter of the pooled sum of the cell. -/
def OUT : SO.Idx → EReal := fun i =>
  pooled gx gy gz vm x ((i 0).val * 40000 + ((i 2).val * 200 + (i 3).val)) (i 1) * (((1 / 4 : ℝ)) : EReal)

end

end Cert.Spec

/-! ## The kernel's way to the pooled sum: one-hot rows times feature tiles, accumulated tile by tile -/

namespace Cert.Spec

open Idealize.ShloMosaic Idealize.ShloMosaic.ValueIdx

/-- One entry of the kernel's indicator matrix: 1 where the voxel word equals the point's word, else 0. -/
def hot (a b : BitVec 32) : EReal := FloatOps.sitofp (F := Ideal) .f32 ((IntOp.cmpi .eq a b).setWidth 32)

/-- What one tile of 2048 points adds to the voxel whose word is `a`: the matrix product's entry onto a zero accumulator. -/
def tileSum (a : BitVec 32) (fid : Fin 2048 → BitVec 32) (xs : Fin 2048 → EReal) : EReal :=
  Ideal.ofBits .f32 0x00000000#32 + ∑ k : Fin 2048, hot a (fid k) * xs k

/-- The accumulator after tile `n` of a column of the grid: zeroed at the first tile, each tile's product added. -/
def accum (a : BitVec 32) (fid : ℕ → Fin 2048 → BitVec 32) (xs : ℕ → Fin 2048 → EReal) : ℕ → EReal
  | 0 => Ideal.ofBits .f32 0x00000000#32 + tileSum a (fid 0) (xs 0)
  | n + 1 => accum a fid xs n + tileSum a (fid (n + 1)) (xs (n + 1))

end Cert.Spec

end
-- ==== Proof.KernelBody.lean ====
import proofs.«120953_j64415919505618_1_alg».proof.Proof.Gen.KernelIdeal.Frame
import proofs.«120953_j64415919505618_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.TcCoe Idealize.ShloMosaic.ValueIdx Idealize.SL.Sem
open Cert.KernelIdeal Cert.KernelIdeal.Gen

variable {F : FTy → Type} [FloatOps F]

/-- The all-zero offsets of the whole-buffer rectangles, at rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## What each control case of the body leaves, as the printed payloads (any float values) -/

/-- Case A (the first tile of a column): the body stores the zero block into the carried accumulator, reads it back,
    and leaves in it the zero block plus this tile's product. -/
theorem sout_A (c : Dev nD) (i : grid0.Coords) (arg3 : Memref sig .tc .vmem S1x1x2048 .i32) (harg3 : arg3.IsWhole) (arg4 : Memref sig .tc .vmem S1x2048x80 .bf16) (harg4 : arg4.IsWhole) (arg5 : Memref sig .tc .vmem S1x2000x80 .f32) (harg5 : arg5.IsWhole) (arg6 : Memref sig .tc .vmem S2000x80 .f32) (harg6 : arg6.IsWhole) (hc0 : cond0_0 i) (hc1 : ¬cond0_1 i)
    (x0 : Vec F S1x1x2048 .i32) (x1 : Vec F S1x2048x80 .bf16) :
    sout0_A_0 c i arg3 harg3 arg4 harg4 arg5 harg5 arg6 harg6 hc0 hc1 x0 x1 = k0_pay2 i x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S2000x80) hz2, View.readCov_unit_zero (S := S2000x80) _ hz2]
  simp only [View.readAt_eq_ld, harg3.read_unread, harg4.read_unread,
    View.ld_unit_zero (S := S1x1x2048) hz3, View.ld_unit_zero (S := S1x2048x80) hz3, shapeCast_self]

/-- Case B (a middle tile): the one covering store leaves the accumulator's earlier contents plus this tile's product. -/
theorem sout_B (c : Dev nD) (i : grid0.Coords) (arg3 : Memref sig .tc .vmem S1x1x2048 .i32) (harg3 : arg3.IsWhole) (arg4 : Memref sig .tc .vmem S1x2048x80 .bf16) (harg4 : arg4.IsWhole) (arg5 : Memref sig .tc .vmem S1x2000x80 .f32) (harg5 : arg5.IsWhole) (arg6 : Memref sig .tc .vmem S2000x80 .f32) (harg6 : arg6.IsWhole) (hc0 : ¬cond0_0 i) (hc1 : ¬cond0_1 i)
    (x0 : Vec F S1x1x2048 .i32) (x1 : Vec F S1x2048x80 .bf16) (xs0 : Vec F S2000x80 .f32) :
    sout0_B_0 c i arg3 harg3 arg4 harg4 arg5 harg5 arg6 harg6 hc0 hc1 x0 x1 xs0 = k0_pay2 i x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz2]
  simp only [View.readAt_eq_ld, harg3.read_unread, harg4.read_unread, harg6.read_unread,
    View.ld_unit_zero (S := S1x1x2048) hz3, View.ld_unit_zero (S := S1x2048x80) hz3, View.ld_unit_zero (S := S2000x80) hz2, shapeCast_self]

/-- Case C (the last tile of a column), the accumulator: as in case B. -/
theorem sout_C (c : Dev nD) (i : grid0.Coords) (arg3 : Memref sig .tc .vmem S1x1x2048 .i32) (harg3 : arg3.IsWhole) (arg4 : Memref sig .tc .vmem S1x2048x80 .bf16) (harg4 : arg4.IsWhole) (arg5 : Memref sig .tc .vmem S1x2000x80 .f32) (harg5 : arg5.IsWhole) (arg6 : Memref sig .tc .vmem S2000x80 .f32) (harg6 : arg6.IsWhole) (hc0 : ¬cond0_0 i) (hc1 : cond0_1 i)
    (x0 : Vec F S1x1x2048 .i32) (x1 : Vec F S1x2048x80 .bf16) (xs0 : Vec F S2000x80 .f32) :
    sout0_C_0 c i arg3 harg3 arg4 harg4 arg5 harg5 arg6 harg6 hc0 hc1 x0 x1 xs0 = k0_pay2 i x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S2000x80) hz2]
  simp only [View.readAt_eq_ld, harg3.read_unread, harg4.read_unread, harg6.read_unread,
    View.ld_unit_zero (S := S1x1x2048) hz3, View.ld_unit_zero (S := S1x2048x80) hz3, View.ld_unit_zero (S := S2000x80) hz2, shapeCast_self]

/-- Case C, the output block: the accumulator just stored is read back whole and scaled. -/
theorem out_C (c : Dev nD) (i : grid0.Coords) (arg3 : Memref sig .tc .vmem S1x1x2048 .i32) (harg3 : arg3.IsWhole) (arg4 : Memref sig .tc .vmem S1x2048x80 .bf16) (harg4 : arg4.IsWhole) (arg5 : Memref sig .tc .vmem S1x2000x80 .f32) (harg5 : arg5.IsWhole) (arg6 : Memref sig .tc .vmem S2000x80 .f32) (harg6 : arg6.IsWhole) (hc0 : ¬cond0_0 i) (hc1 : cond0_1 i)
    (x0 : Vec F S1x1x2048 .i32) (x1 : Vec F S1x2048x80 .bf16) (xs0 : Vec F S2000x80 .f32) :
    out0_C_2 c i arg3 harg3 arg4 harg4 arg5 harg5 arg6 harg6 hc0 hc1 x0 x1 xs0 = k0_pay3 (k0_pay2 i x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S1x2000x80) hz3, View.readCov_unit_zero (S := S2000x80) _ hz2]
  simp only [View.readAt_eq_ld, harg3.read_unread, harg4.read_unread, harg6.read_unread,
    View.ld_unit_zero (S := S1x1x2048) hz3, View.ld_unit_zero (S := S1x2048x80) hz3, View.ld_unit_zero (S := S2000x80) hz2, shapeCast_self]

/-! ## The payloads read at an index, over the extended reals -/

/-- The row iota of the indicator matrix reads the row number. -/
theorem iota_at (h : S2000x2048.Iotas .tc 32 [0]) (r : Fin 2000) (k : Fin 2048) :
    iota .tc S2000x2048 32 [0] h (ix2 r k) = BitVec.ofNat 32 r.val := by
  unfold iota
  show BitVec.ofNat 32 (0 * 2000 + r.val) = _
  rw [Nat.zero_mul, Nat.zero_add]

/-- The tile's point words, squeezed to one row and broadcast over the voxel rows, read the point's word. -/
theorem fid_at (v3 : IVec S1x1x2048 32) (h1 : S1x1x2048.ShapeCasts S1x2048) (h2 : S1x2048.Broadcasts S2000x2048)
    (r : Fin 2000) (k : Fin 2048) :
    broadcastTo S2000x2048 (shapeCast S1x2048 v3 h1) h2 (ix2 r k) = v3 (ix3 (0 : Fin 1) (0 : Fin 1) k) := by
  refine (broadcastTo_1b_ab_apply _ h2 r k).trans ?_
  refine shapeCast_apply v3 h1 _ _ ?_
  rw [Shape.rowMajor_val_three, Shape.rowMajor_val_two]
  show (0 * 1 + 0) * 2048 + k.val = 0 * 2048 + k.val
  simp only [Nat.zero_mul, Nat.zero_add]

/-- The matrix product of the kernel's dimension numbers at an index: the accumulator's entry plus the sum over the
    contracted coordinate of the products of the entries. -/
theorem matmul_at (A : FVec Ideal S2000x2048 .bf16) (B : FVec Ideal S2048x80 .bf16) (acc : FVec Ideal S2000x80 .f32)
    (r : Fin 2000) (ch : Fin 80) :
    matmul dot_S2000x2048_S2048x80_S2000x80_1_0_0_1_n_n none A B acc (ix2 r ch)
      = acc (ix2 r ch) + ∑ k : Fin 2048, A (ix2 r k) * B (ix2 k ch) := by
  show FloatOps.matmul _ none A B acc (ix2 r ch) = _
  rw [Ideal.matmul_apply, ← Equiv.sum_comp (contrEquiv1 dot_S2000x2048_S2048x80_S2000x80_1_0_0_1_n_n 2048 rfl rfl).symm]
  refine congrArg (acc (ix2 r ch) + ·) (Finset.sum_congr rfl fun k _ => ?_)
  have c2 := contrEquiv1_symm_val dot_S2000x2048_S2048x80_S2000x80_1_0_0_1_n_n 2048 rfl rfl k
  have l2 : dot_S2000x2048_S2048x80_S2000x80_1_0_0_1_n_n.lhsIdx (ix2 r ch) ((contrEquiv1 _ 2048 rfl rfl).symm k) = ix2 r k := by
    funext ax; apply Fin.ext
    match ax with
    | ⟨0, _⟩ => simp [DotDims.lhsIdx, dot_S2000x2048_S2048x80_S2000x80_1_0_0_1_n_n]; rfl
    | ⟨1, _⟩ => simp [DotDims.lhsIdx, dot_S2000x2048_S2048x80_S2000x80_1_0_0_1_n_n]; exact c2
  have r2 : dot_S2000x2048_S2048x80_S2000x80_1_0_0_1_n_n.rhsIdx (ix2 r ch) ((contrEquiv1 _ 2048 rfl rfl).symm k) = ix2 k ch := by
    funext ax; apply Fin.ext
    match ax with
    | ⟨0, _⟩ => simp [DotDims.rhsIdx, dot_S2000x2048_S2048x80_S2000x80_1_0_0_1_n_n]; exact c2
    | ⟨1, _⟩ => simp [DotDims.rhsIdx, dot_S2000x2048_S2048x80_S2000x80_1_0_0_1_n_n]; rfl
  rw [l2, r2]

/-- The voxel word of row `r` of the tile of voxels at grid coordinate `v`. -/
abbrev voxW (v : ℕ) (r : Fin 2000) : BitVec 32 :=
  IntOp.addi (Scalar.muli (BitVec.ofNat 32 v) 2000#32) (BitVec.ofNat 32 r.val)

/-- The block the first tile stores before accumulating is the zero word everywhere. -/
theorem pay1_apply (r : Fin 2000) (ch : Fin 80) :
    k0_pay1 (F := Ideal) (ix2 r ch) = Ideal.ofBits .f32 0x00000000#32 := by
  unfold k0_pay1
  exact (congrFun (shapeCast_self _ _) (ix2 r ch)).trans rfl

/-- The accumulator after a tile, at voxel row `r` and feature `ch`: its earlier entry plus the tile's one-hot row
    times the tile's feature column — the indicator entry compares the voxel word of the row with the point's word. -/
theorem pay2_apply (i : grid0.Coords) (v3 : Vec Ideal S1x1x2048 .i32) (v5 : Vec Ideal S1x2048x80 .bf16) (v17 : Vec Ideal S2000x80 .f32)
    (r : Fin 2000) (ch : Fin 80) :
    k0_pay2 (F := Ideal) i v3 v5 v17 (ix2 r ch)
      = v17 (ix2 r ch) + Cert.Spec.tileSum (voxW (i 1).val r) (fun k => v3 (ix3 (0 : Fin 1) (0 : Fin 1) k)) (fun k => v5 (ix3 (0 : Fin 1) k ch)) := by
  unfold k0_pay2
  refine (congrFun (shapeCast_self _ _) (ix2 r ch)).trans ?_
  refine (addf_apply _ _ _).trans ?_
  refine congrArg (v17 (ix2 r ch) + ·) ?_
  refine (matmul_at _ _ _ r ch).trans ?_
  unfold Cert.Spec.tileSum
  refine congrArg (Ideal.ofBits .f32 0x00000000#32 + ·) (Finset.sum_congr rfl fun k _ => ?_)
  refine congrArg₂ (· * ·) ?_ (shapeCast_1ab_ab_apply v5 _ k ch)
  unfold Cert.Spec.hot
  show FloatOps.sitofp (F := Ideal) .f32 ((IntOp.cmpi .eq (IntOp.addi (Scalar.muli (BitVec.ofNat 32 (i 1).val) 2000#32)
      (iota .tc S2000x2048 32 [0] _ (ix2 r k))) (broadcastTo S2000x2048 (shapeCast S1x2048 v3 _) _ (ix2 r k))).setWidth 32) = _
  rw [iota_at, fid_at]

/-- The output block of the last tile: the accumulator's entry times the quarter word. -/
theorem pay3_apply (v25 : Vec Ideal S2000x80 .f32) (r : Fin 2000) (ch : Fin 80) :
    k0_pay3 (F := Ideal) v25 (ix3 (0 : Fin 1) r ch) = v25 (ix2 r ch) * Ideal.ofBits .f32 0x3E800000#32 := by
  unfold k0_pay3
  exact (shapeCast_ab_1ab_apply _ _ (0 : Fin 1) r ch).trans rfl

end Cert.KernelIdeal.Body

end
-- ==== Proof.Coords.lean ====
/-
  The cell coordinates of every point as ONE function of the geometry input, shared by the kernel's program and
  the reference: both compute (geom - (lo - step/2)) / step on the host, convert to 32-bit integers rounding
  toward zero, and take the three components apart. Nothing here is ever read at an index: the two sides only
  need that they are the same arrays.
-/
import Idealize.ShloMosaic.PureOps.Ideal
import Idealize.ShloMosaic.PureOps
import Idealize.ShloMosaic.Lib.ValueIdx

noncomputable section

namespace Cert.Coords

open Idealize.ShloMosaic

abbrev SG : Shape := ⟨6, ![4, 4, 41, 16, 44, 3]⟩
abbrev SG1 : Shape := ⟨6, ![4, 4, 41, 16, 44, 1]⟩
abbrev SP : Shape := ⟨5, ![4, 4, 41, 16, 44]⟩
abbrev S3 : Shape := ⟨1, ![3]⟩
abbrev S0 : Shape := ⟨0, ![]⟩
abbrev S111113 : Shape := ⟨6, ![1, 1, 1, 1, 1, 3]⟩

/-- The cell steps (0.5, 0.5, 20) and the grid's low corner centres (-49.75, -49.75, 0), as the programs' words. -/
abbrev stepW : Fin 3 → BitVec 32 := fun
  | 0 => 0x3F000000#32 | 1 => 0x3F000000#32 | 2 => 0x41A00000#32
  | _ => 0#32
abbrev loW : Fin 3 → BitVec 32 := fun
  | 0 => 0xC2470000#32 | 1 => 0xC2470000#32 | 2 => 0x00000000#32
  | _ => 0#32

def stepV : FVec Ideal S3 .f32 := fun i => FloatOps.ofBits .f32 (stepW (S3.rowMajor i))
def loV : FVec Ideal S3 .f32 := fun i => FloatOps.ofBits .f32 (loW (S3.rowMajor i))

/-- All three integer cell coordinates of every point. -/
def cells (a0 : FVec Ideal SG .f32) : IVec SG 32 :=
  fptosi 32 (Host.divf
    (subf a0 (broadcastInDim SG ![0, 1, 2, 3, 4, 5] (by decide) (broadcastInDim S111113 ![5] (by decide)
      (subf loV (Host.divf stepV (broadcastInDim S3 ![] (by decide) (constant S0 .f32 0x40000000#32)))))))
    (broadcastInDim SG ![0, 1, 2, 3, 4, 5] (by decide) (broadcastInDim S111113 ![5] (by decide) stepV)))

/-- One component of the cell coordinates, as an array over the points. -/
def gxOf (a0 : FVec Ideal SG .f32) : IVec SP 32 :=
  shapeCast SP (extractStridedSlice SG1 ![0, 0, 0, 0, 0, 0] (cells a0) (by decide)) (by decide)
def gyOf (a0 : FVec Ideal SG .f32) : IVec SP 32 :=
  shapeCast SP (extractStridedSlice SG1 ![0, 0, 0, 0, 0, 1] (cells a0) (by decide)) (by decide)
def gzOf (a0 : FVec Ideal SG .f32) : IVec SP 32 :=
  shapeCast SP (extractStridedSlice SG1 ![0, 0, 0, 0, 0, 2] (cells a0) (by decide)) (by decide)

end Cert.Coords

end
-- ==== Proof.KernelPre.lean ====
import proofs.«120953_j64415919505618_1_alg».proof.Proof.Gen.KernelIdeal.Frame
import proofs.«120953_j64415919505618_1_alg».proof.Proof.Spec
import proofs.«120953_j64415919505618_1_alg».proof.Proof.Coords
import Idealize.ShloMosaic.Lib.Pipeline.Value
import Idealize.ShloMosaic.Lib.ValueIdx
import Idealize.ShloMosaic.Lib.StableHlo.Run

noncomputable section

namespace Cert.KernelIdeal.Pre

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The three cell coordinates of every point, the validity bits and the features, from the launch memory. -/
abbrev gx : Cert.Spec.SP.Idx → BitVec 32 := Cert.Coords.gxOf (m ((c : Thread nD τ).loc main_arg0))
abbrev gy : Cert.Spec.SP.Idx → BitVec 32 := Cert.Coords.gyOf (m ((c : Thread nD τ).loc main_arg0))
abbrev gz : Cert.Spec.SP.Idx → BitVec 32 := Cert.Coords.gzOf (m ((c : Thread nD τ).loc main_arg0))
abbrev vm : Cert.Spec.SP.Idx → BitVec 1 := m ((c : Thread nD τ).loc main_arg1)
abbrev xx : Cert.Spec.SX.Idx → EReal := m ((c : Thread nD τ).loc main_arg2)

/-! ## The two arrays as whole-array terms of the launch contents

The host operations before the region, folded over an arbitrary valuation `W`: the voxel words are the kept-or-dropped
select of the cell number, viewed as [4, 115456], padded on the point axis with -1 to [4, 116736] and viewed as
[4, 1, 116736]; the features are the input viewed as [4, 115456, 80], converted (the identity on the extended reals) and
padded on the point axis with the conversion of the integer 0. -/

/-- A scalar constant spread over the points. -/
abbrev spread (k : BitVec 32) : IVec S4x4x41x16x44 32 :=
  broadcastInDim S4x4x41x16x44 ![] (by decide) (constantI S_ 32 k)

/-- The kept bits as a whole array: six comparisons of the coordinate arrays with spread constants and the validity
    bits, joined by `and` in the program's order. -/
def keptV (gx gy gz : IVec S4x4x41x16x44 32) (vm : IVec S4x4x41x16x44 1) : IVec S4x4x41x16x44 1 :=
  andi (andi (andi (andi (andi (andi
    (cmpi .sge gx (spread 0#32)) (cmpi .slt gx (spread 200#32)))
    (cmpi .sge gy (spread 0#32))) (cmpi .slt gy (spread 200#32)))
    (cmpi .sge gz (spread 0#32))) (cmpi .slt gz (spread 1#32))) vm

/-- The voxel words as a whole array: gx · 200 + gy where kept, -1 elsewhere. -/
def fidV (gx gy gz : IVec S4x4x41x16x44 32) (vm : IVec S4x4x41x16x44 1) : IVec S4x4x41x16x44 32 :=
  select (keptV gx gy gz vm) (addi (muli gx (spread 200#32)) gy) (spread 4294967295#32)

/-- At a point the whole-array word is the specification's word: every operation acts point by point and a spread
    constant is that constant at every point. -/
theorem fidV_apply (gx gy gz : IVec S4x4x41x16x44 32) (vm : IVec S4x4x41x16x44 1) (p : S4x4x41x16x44.Idx) :
    fidV gx gy gz vm p = Cert.Spec.fidW gx gy gz vm p := rfl

/-- The voxel-word array after the host operations, over any starting contents. -/
theorem v43_of (W : Valuation τ sig (Elt Ideal)) :
    (StableHlo.after (List.flatten [hostOps0, hostOps0_1, hostOps0_2, hostOps0_3, hostOps0_4, hostOps0_5, hostOps0_6]) W
        (Proc.devRef .tc main_v43) : S4x1x116736.Idx → BitVec 32)
      = shapeCast S4x1x116736 (pad S4x116736 ![0, 0] ![0, 1280] ![0, 0]
          (shapeCast S4x115456 (fidV (Cert.Coords.gxOf (W (Proc.devRef .tc main_arg0))) (Cert.Coords.gyOf (W (Proc.devRef .tc main_arg0)))
            (Cert.Coords.gzOf (W (Proc.devRef .tc main_arg0))) (W (Proc.devRef .tc main_arg1))) (by decide))
          (constantI S_ 32 4294967295#32) (by decide) (by decide)) (by decide) := by
  simp only [hostOps0, hostOps0_1, hostOps0_2, hostOps0_3, hostOps0_4, hostOps0_5, hostOps0_6, List.flatten_cons, List.flatten_nil,
    List.append_nil, List.cons_append, List.nil_append]
  after_results_simp
  rfl

/-- The feature array after the host operations, over any starting contents. -/
theorem v42_of (W : Valuation τ sig (Elt Ideal)) :
    (StableHlo.after (List.flatten [hostOps0, hostOps0_1, hostOps0_2, hostOps0_3, hostOps0_4, hostOps0_5, hostOps0_6]) W
        (Proc.devRef .tc main_v42) : S4x116736x80.Idx → EReal)
      = pad S4x116736x80 ![0, 0, 0] ![0, 1280, 0] ![0, 0, 0]
          (truncf (F := Ideal) (φ := .f32) .bf16 (shapeCast S4x115456x80 (W (Proc.devRef .tc main_arg2)) (by decide)) (by decide))
          (sitofp (F := Ideal) .bf16 (constantI S_ 32 0#32)) (by decide) (by decide) := by
  simp only [hostOps0, hostOps0_1, hostOps0_2, hostOps0_3, hostOps0_4, hostOps0_5, hostOps0_6, List.flatten_cons, List.flatten_nil,
    List.append_nil, List.cons_append, List.nil_append]
  after_results_simp
  rfl

/-! ## Reading the padded arrays and the views at an index -/

theorem pad_fid_apply {α : Type} (x : S4x115456.Idx → α) (v : S_.Idx → α)
    (hp : S4x115456.Pads (![0, 0] : Fin 2 → Nat) ![0, 1280] ![0, 0] S4x116736) (hu : 0 < S_.numel)
    (b : Fin 4) (q : Fin 116736) :
    pad S4x116736 ![0, 0] ![0, 1280] ![0, 0] x v hp hu (ix2 b q)
      = if h : q.val < 115456 then x (ix2 b ⟨q.val, h⟩) else v (Shape.Idx.first hu) := by
  unfold pad
  by_cases h : q.val < 115456
  · rw [dif_pos h, dif_pos]
    · congr 1
      funext a
      match a with
      | ⟨0, _⟩ => exact Fin.ext (show (b.val - 0) / (0 + 1) = b.val by omega)
      | ⟨1, _⟩ => exact Fin.ext (show (q.val - 0) / (0 + 1) = q.val by omega)
    · intro a
      match a with
      | ⟨0, _⟩ =>
        refine ⟨Nat.zero_le _, ?_, ?_⟩
        · show (b.val - 0) % (0 + 1) = 0
          omega
        · show (b.val - 0) / (0 + 1) < 4
          have := b.isLt
          omega
      | ⟨1, _⟩ =>
        refine ⟨Nat.zero_le _, ?_, ?_⟩
        · show (q.val - 0) % (0 + 1) = 0
          omega
        · show (q.val - 0) / (0 + 1) < 115456
          omega
  · rw [dif_neg h, dif_neg]
    intro hin
    have h1 : (q.val - 0) / (0 + 1) < 115456 := (hin 1).2.2
    omega

theorem pad_x_apply {α : Type} (x : S4x115456x80.Idx → α) (v : S_.Idx → α)
    (hp : S4x115456x80.Pads (![0, 0, 0] : Fin 3 → Nat) ![0, 1280, 0] ![0, 0, 0] S4x116736x80) (hu : 0 < S_.numel)
    (b : Fin 4) (q : Fin 116736) (ch : Fin 80) :
    pad S4x116736x80 ![0, 0, 0] ![0, 1280, 0] ![0, 0, 0] x v hp hu (ix3 b q ch)
      = if h : q.val < 115456 then x (ix3 b ⟨q.val, h⟩ ch) else v (Shape.Idx.first hu) := by
  unfold pad
  by_cases h : q.val < 115456
  · rw [dif_pos h, dif_pos]
    · congr 1
      funext a
      match a with
      | ⟨0, _⟩ => exact Fin.ext (show (b.val - 0) / (0 + 1) = b.val by omega)
      | ⟨1, _⟩ => exact Fin.ext (show (q.val - 0) / (0 + 1) = q.val by omega)
      | ⟨2, _⟩ => exact Fin.ext (show (ch.val - 0) / (0 + 1) = ch.val by omega)
    · intro a
      match a with
      | ⟨0, _⟩ =>
        refine ⟨Nat.zero_le _, ?_, ?_⟩
        · show (b.val - 0) % (0 + 1) = 0
          omega
        · show (b.val - 0) / (0 + 1) < 4
          have := b.isLt
          omega
      | ⟨1, _⟩ =>
        refine ⟨Nat.zero_le _, ?_, ?_⟩
        · show (q.val - 0) % (0 + 1) = 0
          omega
        · show (q.val - 0) / (0 + 1) < 115456
          omega
      | ⟨2, _⟩ =>
        refine ⟨Nat.zero_le _, ?_, ?_⟩
        · show (ch.val - 0) % (0 + 1) = 0
          omega
        · show (ch.val - 0) / (0 + 1) < 80
          have := ch.isLt
          omega
  · rw [dif_neg h, dif_neg]
    intro hin
    have h1 : (q.val - 0) / (0 + 1) < 115456 := (hin 1).2.2
    omega

/-- The point with flat number `n` sits at row-major place `n`. -/
theorem rowMajor_ptOf (n : Fin 461824) : (Cert.Spec.SP.rowMajor (Cert.Spec.ptOf n)).val = n.val :=
  congrArg Fin.val (Cert.Spec.SP.rowMajor.apply_symm_apply n)

/-- The point of batch `b` at place `q`, reached through the two-axis view of the points. -/
theorem cast_pts (h : S4x115456.numel = S4x4x41x16x44.numel) (b : Fin 4) (q : ℕ) (hq : q < 115456) :
    Shape.reshapeEquiv h (ix2 b (⟨q, hq⟩ : Fin 115456)) = Cert.Spec.ptOf (Cert.Spec.flat b q hq) := by
  apply Shape.reshapeEquiv_eq_of_rowMajor
  rw [Shape.rowMajor_val_two]
  exact rowMajor_ptOf _

/-- The three-axis view with a unit middle axis reads the two-axis array at the same row and place. -/
theorem cast_unit (h : S4x1x116736.numel = S4x116736.numel) (b : Fin 4) (q : Fin 116736) :
    Shape.reshapeEquiv h (ix3 b (0 : Fin 1) q) = ix2 b q := by
  apply Shape.reshapeEquiv_eq_of_rowMajor
  rw [Shape.rowMajor_val_two, Shape.rowMajor_val_three]
  show b.val * 116736 + q.val = (b.val * 1 + 0) * 116736 + q.val
  omega

/-- The features of batch `b`, place `q`, channel `ch`: the same element through the three-axis view and through the
    flat two-axis view of the feature array. -/
theorem cast_feat (h : S4x115456x80.numel = S4x4x41x16x44x80.numel) (h' : Cert.Spec.SX2.numel = Cert.Spec.SX.numel)
    (b : Fin 4) (q : ℕ) (hq : q < 115456) (ch : Fin 80) :
    Shape.reshapeEquiv h (ix3 b (⟨q, hq⟩ : Fin 115456) ch)
      = Shape.reshapeEquiv (s := Cert.Spec.SX) (s' := Cert.Spec.SX2) h' (ix2 (Cert.Spec.flat b q hq) ch) := by
  apply Shape.reshapeEquiv_eq_of_rowMajor
  rw [Shape.rowMajor_reshapeEquiv, Shape.rowMajor_val_two, Shape.rowMajor_val_three]
  rfl

/-! ## The two windows' arrays as the region finds them -/

/-- The voxel words the region finds in window 0's array: row `b`, padded to 57 tiles of 2048 with -1. -/
theorem fid_in (b : Fin 4) (q : Fin 116736) :
    (V m c main_v43 : S4x1x116736.Idx → BitVec 32) (ix3 b (0 : Fin 1) q)
      = if h : q.val < 115456 then
          Cert.Spec.fidW (gx m c) (gy m c) (gz m c) (vm m c) (Cert.Spec.ptOf (Cert.Spec.flat b q.val h))
        else 4294967295#32 := by
  refine (congrFun (v43_of (fun d => m (c, d))) _).trans ?_
  -- the unit-axis view reads the padded two-axis array at (b, q)
  show pad (s := S4x115456) S4x116736 ![0, 0] ![0, 1280] ![0, 0] _ (u := S_) _ _ _ (Shape.reshapeEquiv _ (ix3 b (0 : Fin 1) q)) = _
  rw [cast_unit, pad_fid_apply]
  by_cases h : q.val < 115456
  · rw [dif_pos h, dif_pos h]
    -- inside the data: the two-axis view reads the point with flat number b · 115456 + q
    show fidV _ _ _ _ (Shape.reshapeEquiv _ (ix2 b (⟨q.val, h⟩ : Fin 115456))) = _
    rw [cast_pts, fidV_apply]
  · rw [dif_neg h, dif_neg h]
    rfl

/-- The features the region finds in window 1's array: batch `b`'s points in order, padded with zero rows. -/
theorem x_in (b : Fin 4) (q : Fin 116736) (ch : Fin 80) :
    (V m c main_v42 : S4x116736x80.Idx → EReal) (ix3 b q ch)
      = if h : q.val < 115456 then
          Cert.Spec.X2 (xx m c) (ix2 (Cert.Spec.flat b q.val h) ch)
        else 0 := by
  refine (congrFun (v42_of (fun d => m (c, d))) _).trans ?_
  rw [pad_x_apply]
  by_cases h : q.val < 115456
  · rw [dif_pos h, dif_pos h]
    -- inside the data: the conversion is the identity, and the two views read the same element of the input
    show (m (c, Proc.devRef .tc main_arg2) : S4x4x41x16x44x80.Idx → EReal) (Shape.reshapeEquiv _ (ix3 b (⟨q.val, h⟩ : Fin 115456) ch))
      = (xx m c) (Shape.reshapeEquiv _ (ix2 (Cert.Spec.flat b q.val h) ch))
    rw [cast_feat]
  · rw [dif_neg h, dif_neg h]
    -- the padding value: the integer 0 converted, which is 0
    show (((0#32 : BitVec 32).toInt : ℝ) : EReal) = 0
    simp

end Cert.KernelIdeal.Pre

end
-- ==== Proof.SpecBits.lean ====
import proofs.«120953_j64415919505618_1_alg».proof.Proof.Spec
import Idealize.ShloMosaic.Lib.Affine

noncomputable section

namespace Cert.Spec

open Idealize.ShloMosaic Idealize.ShloMosaic.ValueIdx

/-! ## Words read as numbers -/

/-- A word whose signed value lies in [0, n) has that same value unsigned. -/
private theorem toNat_lt_of_toInt (a : BitVec 32) (n : ℕ) (h0 : 0 ≤ a.toInt) (h1 : a.toInt < (n : ℤ)) :
    a.toNat < n := by
  have h := BitVec.toInt_eq_toNat_cond a
  have := a.isLt
  split_ifs at h <;> omega

/-- A small unsigned value is also the signed value. -/
private theorem toInt_of_toNat_lt (a : BitVec 32) (h : 2 * a.toNat < 2 ^ 32) : a.toInt = (a.toNat : ℤ) :=
  BitVec.toInt_eq_toNat_of_lt h

/-- The kept bit is 1 exactly when the six comparisons hold and the validity bit is 1. -/
private theorem kept_bit_iff (a c d : BitVec 32) (v : BitVec 1) :
    IntOp.andi (IntOp.andi (IntOp.andi (IntOp.andi (IntOp.andi (IntOp.andi
      (IntOp.cmpi .sge a 0#32) (IntOp.cmpi .slt a 200#32))
      (IntOp.cmpi .sge c 0#32)) (IntOp.cmpi .slt c 200#32))
      (IntOp.cmpi .sge d 0#32)) (IntOp.cmpi .slt d 1#32)) v = 1#1
    ↔ (a.toNat < 200 ∧ c.toNat < 200 ∧ d.toNat = 0 ∧ v = 1#1) := by
  simp only [IntOp.andi_eq_one, IntOp.cmpi_sge, IntOp.cmpi_slt]
  have e0 : (0#32 : BitVec 32).toInt = 0 := by decide
  have e1 : (1#32 : BitVec 32).toInt = 1 := by decide
  have e200 : (200#32 : BitVec 32).toInt = 200 := by decide
  rw [e0, e1, e200]
  constructor
  · rintro ⟨⟨⟨⟨⟨⟨ha0, ha1⟩, hc0⟩, hc1⟩, hd0⟩, hd1⟩, hv⟩
    have hd := toNat_lt_of_toInt d 1 hd0 (by exact_mod_cast hd1)
    exact ⟨toNat_lt_of_toInt a 200 ha0 (by exact_mod_cast ha1), toNat_lt_of_toInt c 200 hc0 (by exact_mod_cast hc1),
      by omega, hv⟩
  · rintro ⟨ha, hc, hd, hv⟩
    have ea := toInt_of_toNat_lt a (by omega)
    have ec := toInt_of_toNat_lt c (by omega)
    have ed := toInt_of_toNat_lt d (by omega)
    refine ⟨⟨⟨⟨⟨⟨?_, ?_⟩, ?_⟩, ?_⟩, ?_⟩, ?_⟩, hv⟩ <;> omega

/-- The cell number inside a batch does not wrap. -/
private theorem fid_toNat (a c : BitVec 32) (ha : a.toNat < 200) (hc : c.toNat < 200) :
    (IntOp.addi (IntOp.muli a 200#32) c).toNat = a.toNat * 200 + c.toNat := by
  simp only [IntOp.addi, IntOp.muli, BitVec.toNat_add, BitVec.toNat_mul, BitVec.toNat_ofNat]
  omega

/-- The global cell number does not wrap. -/
private theorem seg_toNat (b : ℕ) (hb : b < 4) (a c d : BitVec 32) (ha : a.toNat < 200) (hc : c.toNat < 200)
    (hd : d.toNat = 0) :
    (IntOp.addi (IntOp.muli (IntOp.addi (IntOp.muli (IntOp.addi (IntOp.muli (BitVec.ofNat 32 b) 200#32) a) 200#32) c)
      1#32) d).toNat = b * 40000 + (a.toNat * 200 + c.toNat) := by
  simp only [IntOp.addi, IntOp.muli, BitVec.toNat_add, BitVec.toNat_mul, BitVec.toNat_ofNat]
  omega

variable (gx gy gz : SP.Idx → BitVec 32) (vm : SP.Idx → BitVec 1) (x : SX.Idx → EReal)

private theorem kept_iff (p : SP.Idx) :
    kept gx gy gz vm p = 1#1 ↔ ((gx p).toNat < 200 ∧ (gy p).toNat < 200 ∧ (gz p).toNat = 0 ∧ vm p = 1#1) :=
  kept_bit_iff (gx p) (gy p) (gz p) (vm p)

theorem hot_eq (a b : BitVec 32) : hot a b = if a = b then (1 : EReal) else 0 := by
  unfold hot
  show ((((IntOp.cmpi .eq a b).setWidth 32).toInt : ℝ) : EReal) = _
  by_cases h : a = b
  · rw [IntOp.cmpi_eq.2 h, if_pos h]
    have : ((1#1 : BitVec 1).setWidth 32).toInt = 1 := by decide
    rw [this]; simp
  · have h0 : IntOp.cmpi .eq a b = 0#1 := by
      have := mt (IntOp.cmpi_eq (x := a) (y := b)).1 h
      revert this; generalize IntOp.cmpi .eq a b = c; revert c; decide
    rw [h0, if_neg h]
    have : ((0#1 : BitVec 1).setWidth 32).toInt = 0 := by decide
    rw [this]; simp

theorem fidW_eq_iff (p : SP.Idx) (w : ℕ) (hw : w < 40000) :
    fidW gx gy gz vm p = BitVec.ofNat 32 w ↔ cell gx gy gz vm p = some ((p 0).val * 40000 + w) := by
  unfold fidW cell Scalar.select
  by_cases hk : kept gx gy gz vm p = 1#1
  · obtain ⟨ha, hc, -, -⟩ := (kept_iff gx gy gz vm p).1 hk
    have hk' : kept gx gy gz vm p = (1 : BitVec 1) := hk
    rw [if_pos hk', if_pos hk, Option.some_inj, ← BitVec.toNat_inj, fid_toNat _ _ ha hc, BitVec.toNat_ofNat]
    omega
  · have hk' : ¬ kept gx gy gz vm p = (1 : BitVec 1) := hk
    rw [if_neg hk', if_neg hk]
    constructor
    · intro h
      have := congrArg BitVec.toNat h
      simp only [BitVec.toNat_ofNat] at this
      omega
    · intro h; cases h

theorem segW_toInt_eq_iff (p : SP.Idx) (g : ℕ) (hg : g < 160000) :
    (segW gx gy gz vm p).toInt = (g : ℤ) ↔ cell gx gy gz vm p = some g := by
  unfold segW cell Scalar.select
  by_cases hk : kept gx gy gz vm p = 1#1
  · obtain ⟨ha, hc, hd, -⟩ := (kept_iff gx gy gz vm p).1 hk
    have hb : (p 0).val < 4 := (p 0).isLt
    have e := seg_toNat (p 0).val hb _ _ _ ha hc hd
    have hk' : kept gx gy gz vm p = (1 : BitVec 1) := hk
    rw [if_pos hk', if_pos hk, Option.some_inj, toInt_of_toNat_lt _ (by rw [e]; omega), e]
    omega
  · have hk' : ¬ kept gx gy gz vm p = (1 : BitVec 1) := hk
    rw [if_neg hk', if_neg hk]
    constructor
    · intro h
      have e : (160000#32 : BitVec 32).toInt = 160000 := by decide
      rw [e] at h
      omega
    · intro h; cases h

theorem zero_word : Ideal.ofBits .f32 0x00000000#32 = (0 : EReal) := by
  simp [Ideal.ofBits, Ideal.ieee]

private theorem quarter_word : Ideal.ofBits .f32 0x3E800000#32 = (((1 / 4 : ℝ)) : EReal) := by
  simp [Ideal.ofBits, Ideal.ieee, -EReal.coe_mul]; norm_num

private theorem four_word : Ideal.ofBits .f32 0x40800000#32 = (((4 : ℝ)) : EReal) := by
  simp [Ideal.ofBits, Ideal.ieee, -EReal.coe_mul]; norm_num

theorem mul_quarter (a : EReal) : a * Ideal.ofBits .f32 0x3E800000#32 = a * (((1 / 4 : ℝ)) : EReal) := by
  rw [quarter_word]

theorem div_four (a : EReal) : Ideal.div a (Ideal.ofBits .f32 0x40800000#32) = a * (((1 / 4 : ℝ)) : EReal) := by
  rw [four_word, Ideal.div_coe (by norm_num)]

theorem scatter_sum_eq_pooled (g : ℕ) (hg : g < 160000) (ch : Fin 80) :
    (∑ n : Fin 461824, if (segW gx gy gz vm (ptOf n)).toInt = (g : ℤ) then X2 x (ix2 n ch) else 0)
      = pooled gx gy gz vm x g ch := by
  unfold pooled cellF
  refine Finset.sum_congr rfl fun n _ => ?_
  exact if_congr (segW_toInt_eq_iff gx gy gz vm (ptOf n) g hg) rfl rfl

end Cert.Spec

end
-- ==== Proof.SpecSum.lean ====
import proofs.«120953_j64415919505618_1_alg».proof.Proof.SpecBits

noncomputable section

namespace Cert.Spec

open Idealize.ShloMosaic Idealize.ShloMosaic.ValueIdx

/-! ## Regrouping finite sums -/

/-- A double sum over blocks and positions inside a block of length `n` is one sum over flat positions. -/
private theorem sum_range_mul_fin (f : ℕ → EReal) (n : ℕ) : ∀ m : ℕ,
    ∑ i ∈ Finset.range m, ∑ k : Fin n, f (i * n + k.val) = ∑ q ∈ Finset.range (m * n), f q
  | 0 => by simp
  | m + 1 => by
    rw [Finset.sum_range_succ, sum_range_mul_fin f n m, Nat.succ_mul, Finset.sum_range_add,
      Finset.sum_range (fun k => f (m * n + k))]

/-- One tile's contribution: the one-hot product keeps exactly the features of the points whose word is `a`. -/
private theorem tileSum_eq (a : BitVec 32) (fid : Fin 2048 → BitVec 32) (xs : Fin 2048 → EReal) :
    tileSum a fid xs = ∑ k : Fin 2048, if a = fid k then xs k else 0 := by
  unfold tileSum
  rw [zero_word, zero_add]
  refine Finset.sum_congr rfl fun k _ => ?_
  rw [hot_eq]
  split_ifs with h
  · exact one_mul _
  · exact zero_mul _

/-- The accumulator after tile `n` is the sum of the contributions of tiles 0 … n. -/
private theorem accum_eq_sum (a : BitVec 32) (fid : ℕ → Fin 2048 → BitVec 32) (xs : ℕ → Fin 2048 → EReal) :
    ∀ n : ℕ, accum a fid xs n = ∑ pt ∈ Finset.range (n + 1), tileSum a (fid pt) (xs pt)
  | 0 => by
    show Ideal.ofBits .f32 0x00000000#32 + tileSum a (fid 0) (xs 0) = _
    rw [zero_word, zero_add, Finset.sum_range_one]
  | n + 1 => by
    show accum a fid xs n + tileSum a (fid (n + 1)) (xs (n + 1)) = _
    rw [accum_eq_sum a fid xs n, Finset.sum_range_succ _ (n + 1)]

/-! ## The leading coordinate of a point and the batch of its cell -/

/-- Point `q` of batch `b` has leading coordinate `b`: its row-major number is `b·115456 + q` with `q < 115456`. -/
private theorem ptOf_flat_lead (b : Fin 4) (q : ℕ) (h : q < 115456) :
    ((ptOf (flat b q h)) 0).val = b.val := by
  have e : (SP.rowMajor (ptOf (flat b q h))).val = b.val * 115456 + q :=
    congrArg Fin.val (SP.rowMajor.apply_symm_apply (flat b q h))
  have s := Shape.rowMajor_val_succ (n := 4) (d := ![4, 4, 41, 16, 44]) (ptOf (flat b q h))
  have hn : (⟨4, fun a => (![4, 4, 41, 16, 44] : Fin 5 → ℕ) a.succ⟩ : Shape).numel = 115456 := by
    decide
  have key : ∀ M R : ℕ, M = 115456 → R < M →
      (SP.rowMajor (ptOf (flat b q h))).val = ((ptOf (flat b q h)) 0).val * M + R →
      ((ptOf (flat b q h)) 0).val = b.val := by
    intro M R hM hR hs
    subst hM
    have := b.isLt
    omega
  exact key _ _ hn (Fin.isLt _) s

variable (gx gy gz : SP.Idx → BitVec 32) (vm : SP.Idx → BitVec 1) (x : SX.Idx → EReal)

/-- On one-bit words, `and` is 1 only where both arguments are 1. -/
private theorem andi_eq_one {a c : BitVec 1} (h : IntOp.andi a c = 1#1) : a = 1#1 ∧ c = 1#1 := by
  unfold IntOp.andi at h
  rcases BitVec.eq_zero_or_eq_one a with ha | ha <;> rcases BitVec.eq_zero_or_eq_one c with hc | hc <;>
    subst ha <;> subst hc <;> first | exact ⟨rfl, rfl⟩ | exact absurd h (by decide)

private theorem ofBool_eq_one {c : Bool} (h : BitVec.ofBool c = 1#1) : c = true := by
  cases c
  · exact absurd h (by decide)
  · rfl

/-- A word that is signed-nonnegative and signed-below 200 is below 200 as a natural number. -/
private theorem toNat_lt_of_cmpi {v : BitVec 32} (h0 : IntOp.cmpi .sge v 0#32 = 1#1)
    (h1 : IntOp.cmpi .slt v 200#32 = 1#1) : v.toNat < 200 := by
  have a0 := BitVec.sle_iff_toInt_le.mp (ofBool_eq_one h0)
  have a1 := BitVec.slt_iff_toInt_lt.mp (ofBool_eq_one h1)
  have z0 : (0#32).toInt = 0 := by decide
  have z1 : (200#32).toInt = 200 := by decide
  rw [z0] at a0
  rw [z1] at a1
  rw [BitVec.toInt_eq_toNat_cond] at a0 a1
  have := v.isLt
  split at a0 <;> omega

/-- A kept point has both planar cell coordinates below 200. -/
private theorem kept_bounds (p : SP.Idx) (h : kept gx gy gz vm p = 1#1) :
    (gx p).toNat < 200 ∧ (gy p).toNat < 200 := by
  unfold kept at h
  obtain ⟨h, _⟩ := andi_eq_one h
  obtain ⟨h, _⟩ := andi_eq_one h
  obtain ⟨h, _⟩ := andi_eq_one h
  obtain ⟨h, y1⟩ := andi_eq_one h
  obtain ⟨h, y0⟩ := andi_eq_one h
  obtain ⟨x0, x1⟩ := andi_eq_one h
  exact ⟨toNat_lt_of_cmpi x0 x1, toNat_lt_of_cmpi y0 y1⟩

/-- The global cell number of a point lies in the block of 40000 numbers of the point's batch. -/
private theorem cell_bounds (p : SP.Idx) (g : ℕ) (hc : cell gx gy gz vm p = some g) :
    (p 0).val * 40000 ≤ g ∧ g < (p 0).val * 40000 + 40000 := by
  unfold cell at hc
  split at hc
  · rename_i hk
    obtain ⟨hx, hy⟩ := kept_bounds gx gy gz vm p hk
    have := Option.some.inj hc
    omega
  · exact absurd hc (by simp)

/-! ## The accumulated one-hot products are the pooled sum -/

theorem accum_eq_pooled (b : Fin 4) (w : ℕ) (hw : w < 40000) (ch : Fin 80)
    (fid : ℕ → Fin 2048 → BitVec 32) (xs : ℕ → Fin 2048 → EReal)
    (hfid : ∀ pt : ℕ, pt < 57 → ∀ k : Fin 2048, fid pt k =
      if h : pt * 2048 + k.val < 115456 then fidW gx gy gz vm (ptOf (flat b (pt * 2048 + k.val) h))
      else 4294967295#32)
    (hxs : ∀ pt : ℕ, pt < 57 → ∀ k : Fin 2048, xs pt k =
      if h : pt * 2048 + k.val < 115456 then X2 x (ix2 (flat b (pt * 2048 + k.val) h) ch)
      else 0) :
    accum (BitVec.ofNat 32 w) fid xs 56 = pooled gx gy gz vm x (b.val * 40000 + w) ch := by
  -- What point `q` of batch `b` contributes to the cell: its feature if it lies in the cell, else 0;
  -- positions past the 115456 points of the batch contribute 0.
  let g : ℕ → EReal := fun q => if h : q < 115456 then
    (if cellF gx gy gz vm (flat b q h) = some (b.val * 40000 + w) then X2 x (ix2 (flat b q h) ch) else 0) else 0
  -- The kernel's side: every entry of the one-hot product is `g` at the flat position, the tiles regroup
  -- into one sum over 57·2048 positions, and the tail past 115456 is zero.
  have hL : accum (BitVec.ofNat 32 w) fid xs 56 = ∑ q ∈ Finset.range 115456, g q := by
    have term : ∀ pt : ℕ, pt < 57 → ∀ k : Fin 2048,
        (if BitVec.ofNat 32 w = fid pt k then xs pt k else 0) = g (pt * 2048 + k.val) := by
      intro pt hpt k
      rw [hfid pt hpt k, hxs pt hpt k]
      show _ = (if h : pt * 2048 + k.val < 115456 then _ else 0)
      by_cases h : pt * 2048 + k.val < 115456
      · rw [dif_pos h, dif_pos h, dif_pos h]
        have iff1 : BitVec.ofNat 32 w = fidW gx gy gz vm (ptOf (flat b (pt * 2048 + k.val) h)) ↔
            cellF gx gy gz vm (flat b (pt * 2048 + k.val) h) = some (b.val * 40000 + w) := by
          rw [eq_comm, fidW_eq_iff gx gy gz vm _ w hw, ptOf_flat_lead]
          rfl
        exact if_congr iff1 rfl rfl
      · rw [dif_neg h, dif_neg h, dif_neg h, ite_self]
    rw [accum_eq_sum]
    have step1 : ∑ pt ∈ Finset.range (56 + 1), tileSum (BitVec.ofNat 32 w) (fid pt) (xs pt)
        = ∑ pt ∈ Finset.range 57, ∑ k : Fin 2048, g (pt * 2048 + k.val) := by
      refine Finset.sum_congr rfl fun pt hpt => ?_
      rw [tileSum_eq]
      exact Finset.sum_congr rfl fun k _ => term pt (Finset.mem_range.mp hpt) k
    rw [step1, sum_range_mul_fin g 2048 57]
    show ∑ q ∈ Finset.range (115456 + 1280), g q = _
    rw [Finset.sum_range_add]
    have tail : ∑ q ∈ Finset.range 1280, g (115456 + q) = 0 := by
      refine Finset.sum_eq_zero fun q _ => ?_
      show (if h : 115456 + q < 115456 then _ else 0) = 0
      rw [dif_neg (by omega)]
    rw [tail, add_zero]
  -- The specification's side: split the 461824 points into 4 batches of 115456; a point of another batch
  -- is never in a cell of batch `b`, and point `q` of batch `b` contributes `g q`.
  have hR : pooled gx gy gz vm x (b.val * 40000 + w) ch = ∑ q ∈ Finset.range 115456, g q := by
    let F : ℕ → EReal := fun m => if h : m < 461824 then
      (if cellF gx gy gz vm ⟨m, h⟩ = some (b.val * 40000 + w) then X2 x (ix2 ⟨m, h⟩ ch) else 0) else 0
    have e1 : pooled gx gy gz vm x (b.val * 40000 + w) ch = ∑ n : Fin 461824, F n.val := by
      unfold pooled
      refine Finset.sum_congr rfl fun n _ => ?_
      show _ = (if h : n.val < 461824 then _ else 0)
      rw [dif_pos n.isLt]
    have e2 : ∑ n : Fin 461824, F n.val = ∑ i ∈ Finset.range 4, ∑ k : Fin 115456, F (i * 115456 + k.val) := by
      rw [← Finset.sum_range F, sum_range_mul_fin F 115456 4]
    rw [e1, e2, Finset.sum_eq_single b.val]
    · rw [Finset.sum_range g]
      refine Finset.sum_congr rfl fun k _ => ?_
      show (if h : b.val * 115456 + k.val < 461824 then _ else 0) = (if h : k.val < 115456 then _ else 0)
      have h1 : b.val * 115456 + k.val < 461824 := by have := b.isLt; have := k.isLt; omega
      rw [dif_pos h1, dif_pos k.isLt]
      rfl
    · intro i hi hne
      have hi4 : i < 4 := Finset.mem_range.mp hi
      refine Finset.sum_eq_zero fun k _ => ?_
      show (if h : i * 115456 + k.val < 461824 then _ else 0) = 0
      have h1 : i * 115456 + k.val < 461824 := by have := k.isLt; omega
      rw [dif_pos h1]
      refine if_neg fun hc => hne ?_
      have hb := cell_bounds gx gy gz vm (ptOf (flat ⟨i, hi4⟩ k.val k.isLt)) _ hc
      rw [ptOf_flat_lead] at hb
      have hb' : i * 40000 ≤ b.val * 40000 + w ∧ b.val * 40000 + w < i * 40000 + 40000 := hb
      omega
    · intro hb
      exact absurd (Finset.mem_range.mpr b.isLt) hb
  rw [hL, hR]

end Cert.Spec

end
-- ==== Proof.KernelAcc.lean ====
/-
  The carried accumulator of the voxel pooling kernel, grid position by grid position.

  The grid is 4 × 20 × 57, row-major: position t is batch t / 1140, voxel tile (t / 57) % 20, point tile t % 57. A
  column of the grid is one (batch, voxel tile) pair; its 57 positions add the 57 tiles of 2048 points of the batch, one
  one-hot matrix product each, into an accumulator of 2000 rows (the voxels of the tile) by 80 features, zeroed at the
  column's first position; the last position multiplies the accumulator by the word 0.25 into the output block.

  Here: where a block sits in its array (a block's coordinate is its index times the block size plus the coordinate
  inside the block); the accumulator after every position as the running sum `Spec.accum` over the column's tiles (by
  induction on the position); and, at a column's last position, the output block as a quarter of the pooled sum of the
  cell (the running sum over all 57 tiles is the pooled sum: every point of the batch lies in exactly one tile, the
  padding points carry the word -1, which no voxel word equals, and zero features).
-/
import proofs.«120953_j64415919505618_1_alg».proof.Proof.KernelBody
import proofs.«120953_j64415919505618_1_alg».proof.Proof.KernelPre
import proofs.«120953_j64415919505618_1_alg».proof.Proof.SpecSum

noncomputable section

namespace Cert.KernelIdeal.Acc

open Idealize.ShloMosaic Idealize.ShloMosaic.TcCoe Idealize.ShloMosaic.ValueIdx Idealize.SL.Sem
open Cert.KernelIdeal Cert.KernelIdeal.Gen Cert.KernelIdeal.Pre

variable (m : (ℓ : Loc nD τ sig) → Buf (Elt Ideal) ℓ) (c : Dev nD)

/-! ## Where a window's block sits in its array

The grid is 4 × 20 × 57, row-major: position `t` is batch `t / 1140`, voxel tile `(t / 57) % 20`, point tile `t % 57`.
Window 0 (the voxel words, one row of 116736 per batch) is cut into blocks of 2048 words along its last axis, window 1
(the features, 116736 rows of 80 per batch) into blocks of 2048 rows: block `(batch, point tile)` in both. -/

/-- Window 0's block index at every grid position: (batch, 0, point tile). -/
theorem idx0 : ∀ t : Fin cfg0.N, win0_0.index t 0 = t.val / 1140 ∧ win0_0.index t 1 = 0 ∧ win0_0.index t 2 = t.val % 57 :=
  (by decide +kernel : ∀ t : Fin grid0.N, win0_0.index t 0 = t.val / 1140 ∧ win0_0.index t 1 = 0 ∧ win0_0.index t 2 = t.val % 57)

/-- Window 1's block index at every grid position: (batch, point tile, 0). -/
theorem idx1 : ∀ t : Fin cfg0.N, win0_1.index t 0 = t.val / 1140 ∧ win0_1.index t 1 = t.val % 57 ∧ win0_1.index t 2 = 0 :=
  (by decide +kernel : ∀ t : Fin grid0.N, win0_1.index t 0 = t.val / 1140 ∧ win0_1.index t 1 = t.val % 57 ∧ win0_1.index t 2 = 0)

/-- The middle grid coordinate (the voxel tile) of position `t`. -/
theorem coord1 : ∀ t : Fin cfg0.N, (grid0.coords t 1).val = (t.val / 57) % 20 :=
  (by decide +kernel : ∀ t : Fin grid0.N, (grid0.coords t 1).val = (t.val / 57) % 20)

/-- Word `k` of window 0's block at position `t` is word `(t % 57) · 2048 + k` of row `t / 1140` of the array —
    a block's coordinate is its index times the block size plus the coordinate inside the block. For any array. -/
theorem blk0_read (A : Buf (Elt Ideal) ((c : Thread nD τ).loc main_v43)) (t : Fin cfg0.N) (k : Fin 2048) (b : Fin 4) (q : Fin 116736)
    (hb : b.val = t.val / 1140) (hq : q.val = (t.val % 57) * 2048 + k.val) :
    (((cfg0.win 0).blk t).view.read (Elt Ideal) A : S1x1x2048.Idx → BitVec 32) (ix3 (0 : Fin 1) (0 : Fin 1) k)
      = (A : S4x1x116736.Idx → BitVec 32) (ix3 b (0 : Fin 1) q) := by
  obtain ⟨h0, h1, h2⟩ := idx0 t
  rw [View.read_apply]
  show A _ = A _
  refine congrArg A ?_
  funext a
  apply Fin.ext
  match a with
  | ⟨0, _⟩ => show win0_0.index t 0 * 1 + 1 * 0 = b.val; rw [h0, hb]; omega
  | ⟨1, _⟩ => show win0_0.index t 1 * 1 + 1 * 0 = 0; rw [h1]
  | ⟨2, _⟩ => show win0_0.index t 2 * 2048 + 1 * k.val = q.val; rw [h2, hq]; omega

/-- Row `k`, feature `ch` of window 1's block at position `t` is row `(t % 57) · 2048 + k`, feature `ch` of batch
    `t / 1140` of the array. For any array. -/
theorem blk1_read (A : Buf (Elt Ideal) ((c : Thread nD τ).loc main_v42)) (t : Fin cfg0.N) (k : Fin 2048) (ch : Fin 80) (b : Fin 4) (q : Fin 116736)
    (hb : b.val = t.val / 1140) (hq : q.val = (t.val % 57) * 2048 + k.val) :
    (((cfg0.win 1).blk t).view.read (Elt Ideal) A : S1x2048x80.Idx → EReal) (ix3 (0 : Fin 1) k ch)
      = (A : S4x116736x80.Idx → EReal) (ix3 b q ch) := by
  obtain ⟨h0, h1, h2⟩ := idx1 t
  rw [View.read_apply]
  show A _ = A _
  refine congrArg A ?_
  funext a
  apply Fin.ext
  match a with
  | ⟨0, _⟩ => show win0_1.index t 0 * 1 + 1 * 0 = b.val; rw [h0, hb]; omega
  | ⟨1, _⟩ => show win0_1.index t 1 * 2048 + 1 * k.val = q.val; rw [h1, hq]; omega
  | ⟨2, _⟩ => show win0_1.index t 2 * 80 + 1 * ch.val = ch.val; rw [h2]; omega

/-- The two block reads at the arrays the region finds. -/
theorem iblk0_apply (t : Fin cfg0.N) (k : Fin 2048) (b : Fin 4) (q : Fin 116736)
    (hb : b.val = t.val / 1140) (hq : q.val = (t.val % 57) * 2048 + k.val) :
    (iblk m c 0 t : S1x1x2048.Idx → BitVec 32) (ix3 (0 : Fin 1) (0 : Fin 1) k)
      = (V m c main_v43 : S4x1x116736.Idx → BitVec 32) (ix3 b (0 : Fin 1) q) := by
  unfold iblk
  exact blk0_read c (V m c main_v43) t k b q hb hq

theorem iblk1_apply (t : Fin cfg0.N) (k : Fin 2048) (ch : Fin 80) (b : Fin 4) (q : Fin 116736)
    (hb : b.val = t.val / 1140) (hq : q.val = (t.val % 57) * 2048 + k.val) :
    (iblk m c 1 t : S1x2048x80.Idx → EReal) (ix3 (0 : Fin 1) k ch)
      = (V m c main_v42 : S4x116736x80.Idx → EReal) (ix3 b q ch) := by
  unfold iblk
  exact blk1_read c (V m c main_v42) t k ch b q hb hq

/-! ## The tiles of one batch, as functions of the tile number -/

/-- The voxel words of point tile `pt` of batch `b` (tiles past the 57th are never read). -/
def fidT (b : Fin 4) : ℕ → Fin 2048 → BitVec 32 := fun pt k =>
  if h : pt < 57 then (V m c main_v43 : S4x1x116736.Idx → BitVec 32) (ix3 b (0 : Fin 1) ⟨pt * 2048 + k.val, by have := k.isLt; omega⟩)
  else 0#32

/-- Feature `ch` of the points of tile `pt` of batch `b`. -/
def xsT (b : Fin 4) (ch : Fin 80) : ℕ → Fin 2048 → EReal := fun pt k =>
  if h : pt < 57 then (V m c main_v42 : S4x116736x80.Idx → EReal) (ix3 b ⟨pt * 2048 + k.val, by have := k.isLt; omega⟩ ch)
  else 0

theorem tileSum_congr {a a' : BitVec 32} {f f' : Fin 2048 → BitVec 32} {g g' : Fin 2048 → EReal}
    (ha : a = a') (hf : ∀ k, f k = f' k) (hg : ∀ k, g k = g' k) :
    Cert.Spec.tileSum a f g = Cert.Spec.tileSum a' f' g' := by
  obtain rfl := ha
  obtain rfl : f = f' := funext hf
  obtain rfl : g = g' := funext hg
  rfl

theorem accum_step (a : BitVec 32) (fid : ℕ → Fin 2048 → BitVec 32) (xs : ℕ → Fin 2048 → EReal) (p q : ℕ) (h : q = p + 1) :
    Cert.Spec.accum a fid xs q = Cert.Spec.accum a fid xs p + Cert.Spec.tileSum a (fid q) (xs q) := by
  subst h; rfl

/-- What the tile at position `n` adds to row `r`, feature `ch`: the blocks the body is handed are tile `n % 57` of
    batch `n / 1140`, and the voxel word is that of row `r` of voxel tile `(n / 57) % 20`. -/
theorem tile_eq (n : ℕ) (hn : n < cfg0.N) (b : Fin 4) (hb : b.val = n / 1140) (r : Fin 2000) (ch : Fin 80) :
    Cert.Spec.tileSum (Body.voxW (grid0.coords ⟨n, hn⟩ 1).val r)
        (fun k => (iblk m c 0 ⟨n, hn⟩ : S1x1x2048.Idx → BitVec 32) (ix3 (0 : Fin 1) (0 : Fin 1) k))
        (fun k => (iblk m c 1 ⟨n, hn⟩ : S1x2048x80.Idx → EReal) (ix3 (0 : Fin 1) k ch))
      = Cert.Spec.tileSum (Body.voxW ((n / 57) % 20) r) (fidT m c b (n % 57)) (xsT m c b ch (n % 57)) := by
  have hpt : n % 57 < 57 := Nat.mod_lt _ (by decide)
  refine tileSum_congr ?_ (fun k => ?_) (fun k => ?_)
  · rw [coord1 ⟨n, hn⟩]
  · unfold fidT
    rw [dif_pos hpt]
    exact iblk0_apply m c ⟨n, hn⟩ k b _ hb rfl
  · unfold xsT
    rw [dif_pos hpt]
    exact iblk1_apply m c ⟨n, hn⟩ k ch b _ hb rfl

/-! ## The carried accumulator after every grid position -/

/-- After position `n` the accumulator's row `r`, feature `ch` holds the running sum over the tiles `0 … n % 57` of
    the column (batch `n / 1140`, voxel tile `(n / 57) % 20`): zeroed and tile 0 added at the column's first
    position, one tile added at each later one. By induction on the position; inside a column, position `n - 1` is the
    same column's previous tile. -/
theorem acc_inv (n : ℕ) : ∀ (hn : n < cfg0.N) (b : Fin 4) (hb : b.val = n / 1140) (r : Fin 2000) (ch : Fin 80),
    ((outsAt0 m c n hn).2 : S2000x80.Idx → EReal) (ix2 r ch)
      = Cert.Spec.accum (Body.voxW ((n / 57) % 20) r) (fidT m c b) (xsT m c b ch) (n % 57) := by
  induction n using Nat.strong_induction_on with
  | _ n ih =>
    intro hn b hb r ch
    have hN : n < 4560 := lt_of_lt_of_eq hn (show cfg0.N = 4560 from N_0)
    by_cases h0 : n % 57 = 0
    · have h1 : ¬ n % 57 = 56 := by omega
      rw [outsAt0_A m c ⟨n, hn⟩ h0 h1]
      dsimp only
      rw [Body.sout_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩)]
      rw [Body.pay2_apply (grid0.coords ⟨n, hn⟩) (iblk m c 0 ⟨n, hn⟩) (iblk m c 1 ⟨n, hn⟩) (k0_pay1 (F := Ideal)) r ch, Body.pay1_apply r ch,
        tile_eq m c n hn b hb r ch, h0]
      rfl
    · have hn1 : n - 1 < cfg0.N := Nat.lt_of_le_of_lt (Nat.sub_le _ _) hn
      have ihn := ih (n - 1) (by omega) hn1 b (by omega) r ch
      have e1 : ((n - 1) / 57) % 20 = (n / 57) % 20 := by omega
      have e2 : n % 57 = (n - 1) % 57 + 1 := by omega
      rw [e1] at ihn
      by_cases h1 : n % 57 = 56
      · rw [outsAt0_C m c ⟨n, hn⟩ h0 h1]
        dsimp only
        rw [Body.sout_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h1) (iblk m c 0 ⟨n, hn⟩) (iblk m c 1 ⟨n, hn⟩) (outsAt0 m c (n - 1) hn1).2]
        rw [Body.pay2_apply (grid0.coords ⟨n, hn⟩) (iblk m c 0 ⟨n, hn⟩) (iblk m c 1 ⟨n, hn⟩) (outsAt0 m c (n - 1) hn1).2 r ch, ihn,
          tile_eq m c n hn b hb r ch, accum_step _ _ _ ((n - 1) % 57) (n % 57) e2]
      · rw [outsAt0_B m c ⟨n, hn⟩ h0 h1]
        dsimp only
        rw [Body.sout_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (outsAt0 m c (n - 1) hn1).2]
        rw [Body.pay2_apply (grid0.coords ⟨n, hn⟩) (iblk m c 0 ⟨n, hn⟩) (iblk m c 1 ⟨n, hn⟩) (outsAt0 m c (n - 1) hn1).2 r ch, ihn,
          tile_eq m c n hn b hb r ch, accum_step _ _ _ ((n - 1) % 57) (n % 57) e2]

/-! ## The last tile of a column -/

/-- The voxel word of row `r` of voxel tile `v` is the word of the cell number `v · 2000 + r` (32-bit arithmetic is a
    ring homomorphism from the naturals). -/
theorem voxW_eq (v : ℕ) (r : Fin 2000) : Body.voxW v r = BitVec.ofNat 32 (v * 2000 + r.val) := by
  show BitVec.ofNat 32 v * 2000#32 + BitVec.ofNat 32 r.val = _
  rw [BitVec.ofNat_add, BitVec.ofNat_mul]

/-- At a column's last position the output's staging buffer is the new accumulator times the kernel's word 0.25. -/
theorem out_last (t : Fin cfg0.N) (h56 : t.val % 57 = 56) :
    (outsAt0 m c t.val t.isLt).1 = k0_pay3 (outsAt0 m c t.val t.isLt).2 := by
  have h0 : ¬ t.val % 57 = 0 := by omega
  rw [outsAt0_C m c t h0 h56]
  dsimp only
  rw [Body.out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h56) (iblk m c 0 t) (iblk m c 1 t) (outsAt0 m c (t.val - 1) (Nat.lt_of_le_of_lt (Nat.sub_le _ _) t.isLt)).2,
    Body.sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h56) (iblk m c 0 t) (iblk m c 1 t) (outsAt0 m c (t.val - 1) (Nat.lt_of_le_of_lt (Nat.sub_le _ _) t.isLt)).2]

/-- What the output's staging buffer holds after the LAST tile of a column of the grid (batch `t / 1140`, voxel tile
    `(t / 57) % 20`): row `r` at feature `ch` is a quarter (the kernel's word 0.25) of the pooled sum of the
    global cell `batch · 40000 + tile · 2000 + r`. -/
theorem outs_last (t : Fin cfg0.N) (h56 : t.val % 57 = 56) (r : Fin 2000) (ch : Fin 80) :
    ((outsAt0 m c t.val t.isLt).1 : S1x2000x80.Idx → EReal) (ix3 (0 : Fin 1) r ch)
      = Cert.Spec.pooled (gx m c) (gy m c) (gz m c) (vm m c) (xx m c) ((t.val / 1140) * 40000 + (((t.val / 57) % 20) * 2000 + r.val)) ch
        * Ideal.ofBits .f32 0x3E800000#32 := by
  have hN : t.val < 4560 := lt_of_lt_of_eq t.isLt (show cfg0.N = 4560 from N_0)
  have hb4 : t.val / 1140 < 4 := by omega
  have hw : ((t.val / 57) % 20) * 2000 + r.val < 40000 := by have := r.isLt; omega
  rw [out_last m c t h56, Body.pay3_apply (outsAt0 m c t.val t.isLt).2 r ch,
    acc_inv m c t.val t.isLt ⟨t.val / 1140, hb4⟩ rfl r ch, h56, voxW_eq]
  refine congrArg (· * Ideal.ofBits .f32 0x3E800000#32) ?_
  refine Cert.Spec.accum_eq_pooled (gx m c) (gy m c) (gz m c) (vm m c) (xx m c) ⟨t.val / 1140, hb4⟩ _ hw ch _ _ ?_ ?_
  · intro pt hpt k
    unfold fidT
    rw [dif_pos hpt]
    exact fid_in m c ⟨t.val / 1140, hb4⟩ ⟨pt * 2048 + k.val, by have := k.isLt; omega⟩
  · intro pt hpt k
    unfold xsT
    rw [dif_pos hpt]
    exact x_in m c ⟨t.val / 1140, hb4⟩ ⟨pt * 2048 + k.val, by have := k.isLt; omega⟩ ch

end Cert.KernelIdeal.Acc

end
-- ==== Proof.KernelRun.lean ====
import proofs.«120953_j64415919505618_1_alg».proof.Proof.KernelAcc

-- membership in a rectangle of extents [4, 40000, 80] is looked at once per coordinate of the long axis
set_option maxRecDepth 16384

noncomputable section

namespace Cert.KernelIdeal.Run

open Idealize.ShloMosaic Idealize.ShloMosaic.TcCoe Idealize.ShloMosaic.ValueIdx Idealize.SL.Sem
open Cert.KernelIdeal Cert.KernelIdeal.Gen Cert.KernelIdeal.Pre

/-! ## From the blocks written back to the whole result array

The grid is 4 batches × 20 voxel tiles × 57 point tiles, point t = (batch · 20 + voxel tile) · 57 + point tile. The
output's block (1 × 2000 × 80) is written back at the last point tile of each column (t % 57 = 56), to batch t / 1140,
rows ((t / 57) % 20) · 2000 onwards. These 80 blocks tile the [4, 40000, 80] array. -/

/-- The output window's block index at a grid point: batch, voxel tile, feature block 0. -/
theorem idx_out : ∀ t : Fin cfg0.N, win0_2.index t (0 : Fin 3) = t.val / 1140
    ∧ win0_2.index t (1 : Fin 3) = (t.val / 57) % 20 ∧ win0_2.index t (2 : Fin 3) = 0 :=
  (by decide +kernel : ∀ t : Fin grid0.N, _)

section
variable (gx gy gz : Cert.Spec.SP.Idx → BitVec 32) (vm : Cert.Spec.SP.Idx → BitVec 1) (x : Cert.Spec.SX.Idx → EReal)

/-- What the kernel's result array ends holding: at (b, w, ch) the pooled sum of the global cell b · 40000 + w at
    feature ch, times the kernel's word 0.25. -/
def G44 : S4x40000x80.Idx → EReal := fun j =>
  Cert.Spec.pooled gx gy gz vm x ((j 0).val * 40000 + (j 1).val) (j 2) * Ideal.ofBits .f32 0x3E800000#32
end

section
variable (m : (ℓ : Loc nD τ sig) → Buf (Elt Ideal) ℓ) (c : Dev nD)

/-- After the last tile of a column of the grid the output's staging buffer holds, at (0, r, ch), a quarter of the
    pooled sum of the column's voxel r. -/
theorem out_read (t : Fin cfg0.N) (h56 : t.val % 57 = 56) (y : S1x2000x80.Idx) :
    ((outsAt0 m c t.val t.isLt).1 : S1x2000x80.Idx → EReal) y
      = Cert.Spec.pooled (gx m c) (gy m c) (gz m c) (vm m c) (xx m c)
          ((t.val / 1140) * 40000 + (((t.val / 57) % 20) * 2000 + (y 1).val)) (y 2) * Ideal.ofBits .f32 0x3E800000#32 := by
  obtain ⟨a, r, ch, rfl⟩ : ∃ a r ch, y = ix3 a r ch := ⟨_, _, _, eq_ix3 y⟩
  obtain rfl : a = 0 := Subsingleton.elim _ _
  exact Acc.outs_last m c t h56 r ch

/-- What a writing-back point writes back is its block of `G44`: the block of point t sits at batch t / 1140, rows
    ((t / 57) % 20) · 2000 onwards, all 80 features. -/
theorem flushed_eq (t : Fin cfg0.N) (hf : (cfg0.win 2).flush t = true) :
    (dats m 0 c).flushed 2 t = ((cfg0.win 2).blk t).view.read (Elt Ideal) (G44 (gx m c) (gy m c) (gz m c) (vm m c) (xx m c)) := by
  have h56 : t.val % 57 = 56 := (flush0_2 t).mp hf
  show (cfg0.win 2).cut (grid0.coords t) ((dats m 0 c).after 2 t) = _
  rw [after0_2]
  funext y
  show ((outsAt0 m c t.val t.isLt).1 : S1x2000x80.Idx → EReal) y
    = G44 (gx m c) (gy m c) (gz m c) (vm m c) (xx m c) (((cfg0.win 2).blk t).view.emb y)
  refine (out_read m c t h56 y).trans ?_
  obtain ⟨e0, e1, e2⟩ := idx_out t
  have hy0 : (y 0).val < 1 := (y 0).isLt
  have c0 : ((((cfg0.win 2).blk t).view.emb y) 0).val = t.val / 1140 := by
    show win0_2.index t (0 : Fin 3) * 1 + 1 * (y 0).val = _
    omega
  have c1 : ((((cfg0.win 2).blk t).view.emb y) 1).val = ((t.val / 57) % 20) * 2000 + (y 1).val := by
    show win0_2.index t (1 : Fin 3) * 2000 + 1 * (y 1).val = _
    omega
  have c2 : (((cfg0.win 2).blk t).view.emb y) 2 = y 2 := Fin.ext (by
    show win0_2.index t (2 : Fin 3) * 80 + 1 * (y 2).val = (y 2).val
    omega)
  show _ = Cert.Spec.pooled (gx m c) (gy m c) (gz m c) (vm m c) (xx m c)
    (((((cfg0.win 2).blk t).view.emb y) 0).val * 40000 + ((((cfg0.win 2).blk t).view.emb y) 1).val)
    ((((cfg0.win 2).blk t).view.emb y) 2) * Ideal.ofBits .f32 0x3E800000#32
  rw [c0, c1, c2]

/-- An index of the array lies in point t's block iff each coordinate lies in the block's range on its axis. -/
theorem mem_blk (t : Fin cfg0.N) (i : S4x40000x80.Idx) :
    i ∈ ((cfg0.win 2).blk t).view.set ↔ ∀ a : Fin 3, win0_2.index t a * S1x2000x80.size a ≤ (i a).val
      ∧ (i a).val < win0_2.index t a * S1x2000x80.size a + S1x2000x80.size a := by
  show i ∈ ((View.whole main_v44).slice (win0_2.rect t)).set ↔ _
  rw [View.set_slice_whole, Rect.mem_set_unit]
  exact Iff.rfl

/-- The blocks written back tile the array: index (b, w, ch) lies in the block of the last tile of the column
    (b, w / 2000), the point (b · 20 + w / 2000) · 57 + 56. -/
theorem cover (i : S4x40000x80.Idx) :
    ∃ t : Fin cfg0.N, (cfg0.win 2).flush t = true ∧ i ∈ ((cfg0.win 2).blk t).view.set := by
  have h0 : (i 0).val < 4 := (i 0).isLt
  have h1 : (i 1).val < 40000 := (i 1).isLt
  have h2 : (i 2).val < 80 := (i 2).isLt
  have hN : cfg0.N = 4560 := N_0
  obtain ⟨t, ht⟩ : ∃ t : Fin cfg0.N, t.val = ((i 0).val * 20 + (i 1).val / 2000) * 57 + 56 :=
    ⟨⟨((i 0).val * 20 + (i 1).val / 2000) * 57 + 56, by rw [hN]; omega⟩, rfl⟩
  refine ⟨t, (flush0_2 t).mpr (by omega), ?_⟩
  rw [mem_blk]
  obtain ⟨e0, e1, e2⟩ := idx_out t
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 2000 ≤ (i 1).val ∧ (i 1).val < win0_2.index t (1 : Fin 3) * 2000 + 2000
    omega
  | ⟨2, _⟩ =>
    show win0_2.index t (2 : Fin 3) * 80 ≤ (i 2).val ∧ (i 2).val < win0_2.index t (2 : Fin 3) * 80 + 80
    omega

/-- So the kernel's result array ends holding `G44`. -/
theorem final44 : (dats m 0 c).arrAt 2 cfg0.N = G44 (gx m c) (gy m c) (gz m c) (vm m c) (xx m c) :=
  (dats m 0 c).arrAt_eq_of_cover 2 (G44 (gx m c) (gy m c) (gz m c) (vm m c) (xx m c)) (flushed_eq m c) cover

/-- The two layout operations after the region, read at an index: the reshape [4,40000,80] → [4,200,200,80] followed
    by the transpose [0,3,1,2] reads, at (b, ch, i, j), the array at (b, i · 200 + j, ch). -/
theorem tail_read (A : S4x40000x80.Idx → EReal) (b : Fin 4) (ch : Fin 80) (i j : Fin 200) :
    transpose S4x80x200x200 [0, 3, 1, 2] (shapeCast S4x200x200x80 A shapeCasts_S4x40000x80_S4x200x200x80)
        transposes_S4x200x200x80_S4x80x200x200_0_3_1_2 (ix4 b ch i j)
      = A (ix3 b ⟨i.val * 200 + j.val, by have := i.isLt; have := j.isLt; omega⟩ ch) := by
  refine (transpose_apply _ _ _ (ix4 b ch i j) (ix4 b i j ch) (fun a => ?_)).trans ?_
  · match a with
    | ⟨0, _⟩ => rfl
    | ⟨1, _⟩ => rfl
    | ⟨2, _⟩ => rfl
    | ⟨3, _⟩ => rfl
  · refine shapeCast_apply _ _ (ix4 b i j ch) _ ?_
    rw [Shape.rowMajor_val_three, Shape.rowMajor_val_four]
    show (b.val * 40000 + (i.val * 200 + j.val)) * 80 + ch.val = ((b.val * 200 + i.val) * 200 + j.val) * 80 + ch.val
    omega

/-- The program's result: the host operations after the region applied to the kernel's result array give the
    specification. -/
theorem out_eq : Pipeline.afterTail₀ cfgs (dats m) 0 (V0 m) [hostOps1] c main_v46
    = Cert.Spec.OUT (gx m c) (gy m c) (gz m c) (vm m c) (xx m c) := by
  have hw : Pipeline.withArrays (cfgs 0).spec c (V0 m c) (fun w => (dats m 0 c).arrAt w (cfgs 0).N) (Proc.devRef .tc main_v44)
      = G44 (gx m c) (gy m c) (gz m c) (vm m c) (xx m c) :=
    (Pipeline.withArrays_arr spec0 launch0.win.arr_inj c _ _ 2).trans (final44 m c)
  unfold Pipeline.afterTail₀
  show StableHlo.after hostOps1 _ (Proc.devRef .tc main_v46) = _
  after_results
  show transpose S4x80x200x200 [0, 3, 1, 2]
      (shapeCast S4x200x200x80 (Pipeline.withArrays (cfgs 0).spec c (V0 m c) (fun w => (dats m 0 c).arrAt w (cfgs 0).N) (Proc.devRef .tc main_v44))
        shapeCasts_S4x40000x80_S4x200x200x80)
      transposes_S4x200x200x80_S4x80x200x200_0_3_1_2 = _
  rw [hw]
  funext q
  obtain ⟨b, ch, i, j, rfl⟩ : ∃ b ch i j, q = ix4 b ch i j := ⟨_, _, _, _, eq_ix4 q⟩
  rw [tail_read]
  show Cert.Spec.pooled (gx m c) (gy m c) (gz m c) (vm m c) (xx m c) (b.val * 40000 + (i.val * 200 + j.val)) ch * Ideal.ofBits .f32 0x3E800000#32
    = Cert.Spec.pooled (gx m c) (gy m c) (gz m c) (vm m c) (xx m c) (b.val * 40000 + (i.val * 200 + j.val)) ch * (((1 / 4 : ℝ)) : EReal)
  exact Cert.Spec.mul_quarter _

end

/-- The kernel's program, run at the extended reals: the result array ends at the specification's function of the
    cell coordinates, the validity bits and the features; the arguments end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) = Cert.Spec.OUT (gx m c) (gy m c) (gz m c) (vm m c) (xx m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v46 (Pipeline.mem_restRefs_of main_v46 (by decide) (by decide))).trans (out_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefStages.lean ====
/-
  The reference's host program after the cell coordinates, as three pure stages over whole arrays: the kept bits,
  the segment number of every point (the global cell number, or the dummy row for a dropped point), and the tail
  (flatten, scatter-add into 160001 zero rows, drop the dummy row, reshape, transpose, divide by four).
-/
import proofs.«120953_j64415919505618_1_alg».proof.ReferenceIdeal
import proofs.«120953_j64415919505618_1_alg».proof.Proof.Gen.ReferenceIdeal
import Idealize.ShloMosaic.PureOps.Ideal

noncomputable section

namespace Cert.ReferenceIdeal.Stg

open Idealize.ShloMosaic Cert.ReferenceIdeal Cert.ReferenceIdeal.Facts₀

/-- A 32-bit constant over all the points. -/
abbrev kP (b : BitVec 32) : IVec S4x4x41x16x44 32 :=
  broadcastInDim S4x4x41x16x44 ![] bcast_S_S4x4x41x16x44 (constantI S_ 32 b)

/-- The kept bits: the cell inside the grid on each axis, and the point valid. -/
def keptOf (gx gy gz : IVec S4x4x41x16x44 32) (vm : IVec S4x4x41x16x44 1) : IVec S4x4x41x16x44 1 :=
  andi (andi (andi (andi (andi (andi (cmpi .sge gx (kP 0#32)) (cmpi .slt gx (kP 200#32))) (cmpi .sge gy (kP 0#32)))
    (cmpi .slt gy (kP 200#32))) (cmpi .sge gz (kP 0#32))) (cmpi .slt gz (kP 1#32))) vm

/-- The batch number of every point times 200. -/
def batch200 : IVec S4x4x41x16x44 32 :=
  broadcastInDim S4x4x41x16x44 ![0, 1, 2, 3, 4] bcast_S4x1x1x1x1_S4x4x41x16x44_0_1_2_3_4
    (muli (shapeCast S4x1x1x1x1 (iotaInDim S4 32 0) shapeCasts_S4_S4x1x1x1x1)
      (broadcastInDim S4x1x1x1x1 ![] bcast_S_S4x1x1x1x1 (constantI S_ 32 200#32)))

/-- The segment number of every point. -/
def segOf (gx gy gz : IVec S4x4x41x16x44 32) (vm : IVec S4x4x41x16x44 1) : IVec S4x4x41x16x44 32 :=
  select (keptOf gx gy gz vm)
    (addi (muli (addi (muli (addi batch200 gx) (kP 200#32)) gy) (kP 1#32)) gz)
    (broadcastInDim S4x4x41x16x44 ![] bcast_S_S4x4x41x16x44 (id (constantI S_ 32 160000#32)))

/-- The tail: scatter-add the flattened features by segment, drop the dummy row, lay out as (batch, feature, gx, gy), divide by four. -/
def tailOf (seg : IVec S4x4x41x16x44 32) (x : FVec Ideal S4x4x41x16x44x80 .f32) : FVec Ideal S4x80x200x200 .f32 :=
  Host.divf
    (shapeCast S4x80x200x200
      (transpose S4x1x80x200x200 [0, 3, 4, 1, 2]
        (shapeCast S4x200x200x1x80
          (extractStridedSlice S160000x80 ![0, 0]
            (Host.scatterAdd scatter_S160001x80_S461824x1_S461824x80_1_0_0_1
              (broadcastInDim S160001x80 ![] bcast_S_S160001x80 (constant S_ .f32 0x00000000#32))
              (broadcastInDim S461824x1 ![0] bcast_S461824_S461824x1_0 (shapeCast S461824 seg shapeCasts_S4x4x41x16x44_S461824))
              (shapeCast S461824x80 x shapeCasts_S4x4x41x16x44x80_S461824x80))
            slices_S160001x80_S160000x80_0_0)
          shapeCasts_S160000x80_S4x200x200x1x80)
        transposes_S4x200x200x1x80_S4x1x80x200x200_0_3_4_1_2)
      shapeCasts_S4x1x80x200x200_S4x80x200x200)
    (broadcastInDim S4x80x200x200 ![] bcast_S_S4x80x200x200 (constant S_ .f32 0x40800000#32))

end Cert.ReferenceIdeal.Stg

end
-- ==== Proof.RefRun.lean ====
/-
  The reference's run. Its program is a straight line of 75 whole-array operations (the outlined select's three
  listed where it is called), so every execution ends with each buffer at the fold of the operations' functions
  over the launch contents. The fold is read in four consecutive stretches, each over an arbitrary valuation:
  operations 1–19 compute the three components of the cell coordinates from the geometry argument, 20–43 the kept
  bits from those and the validity argument, 44–62 the segment numbers (the global cell number where kept, the
  dummy row elsewhere), 63–75 the tail (flatten, scatter-add by segment, drop the dummy row, lay out, divide by
  four). A stretch reads only what earlier stretches wrote and leaves the rest alone, so the stretches compose to
  the tail stage of the segment stage of the coordinates; no operation writes an argument.
-/
import proofs.«120953_j64415919505618_1_alg».proof.Proof.RefStages
import proofs.«120953_j64415919505618_1_alg».proof.Proof.Coords
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Gen

variable {F : FTy → Type} [FloatOps F]

/-- Operations 1–19: the cell coordinates and their three components. -/
abbrev opsA : List (HloOp τ sig (Elt F)) :=
  [ StableHlo.nullary main_cst (fun i => FloatOps.ofBits .f32 (lit0 (S3.rowMajor i))),
    StableHlo.nullary main_cst_0 (fun i => FloatOps.ofBits .f32 (lit1 (S3.rowMajor i))),
    StableHlo.nullary main_cst_1 (constant S_ .f32 0x40000000#32),
    StableHlo.unary main_cst_1 main_v0 (broadcastInDim S3 ![] bcast_S_S3 : (⟨S_, .f32⟩ : BufTy).Contents (Elt F) → (⟨S3, .f32⟩ : BufTy).Contents (Elt F)),
    StableHlo.binary main_cst main_v0 main_v1 (Host.divf : (⟨S3, .f32⟩ : BufTy).Contents (Elt F) → (⟨S3, .f32⟩ : BufTy).Contents (Elt F) → (⟨S3, .f32⟩ : BufTy).Contents (Elt F)),
    StableHlo.binary main_cst_0 main_v1 main_v2 (subf : (⟨S3, .f32⟩ : BufTy).Contents (Elt F) → (⟨S3, .f32⟩ : BufTy).Contents (Elt F) → (⟨S3, .f32⟩ : BufTy).Contents (Elt F)),
    StableHlo.unary main_v2 main_v3 (broadcastInDim S1x1x1x1x1x3 ![5] bcast_S3_S1x1x1x1x1x3_5 : (⟨S3, .f32⟩ : BufTy).Contents (Elt F) → (⟨S1x1x1x1x1x3, .f32⟩ : BufTy).Contents (Elt F)),
    StableHlo.unary main_v3 main_v4 (broadcastInDim S4x4x41x16x44x3 ![0, 1, 2, 3, 4, 5] bcast_S1x1x1x1x1x3_S4x4x41x16x44x3_0_1_2_3_4_5 : (⟨S1x1x1x1x1x3, .f32⟩ : BufTy).Contents (Elt F) → (⟨S4x4x41x16x44x3, .f32⟩ : BufTy).Contents (Elt F)),
    StableHlo.binary main_arg0 main_v4 main_v5 (subf : (⟨S4x4x41x16x44x3, .f32⟩ : BufTy).Contents (Elt F) → (⟨S4x4x41x16x44x3, .f32⟩ : BufTy).Contents (Elt F) → (⟨S4x4x41x16x44x3, .f32⟩ : BufTy).Contents (Elt F)),
    StableHlo.unary main_cst main_v6 (broadcastInDim S1x1x1x1x1x3 ![5] bcast_S3_S1x1x1x1x1x3_5 : (⟨S3, .f32⟩ : BufTy).Contents (Elt F) → (⟨S1x1x1x1x1x3, .f32⟩ : BufTy).Contents (Elt F)),
    StableHlo.unary main_v6 main_v7 (broadcastInDim S4x4x41x16x44x3 ![0, 1, 2, 3, 4, 5] bcast_S1x1x1x1x1x3_S4x4x41x16x44x3_0_1_2_3_4_5 : (⟨S1x1x1x1x1x3, .f32⟩ : BufTy).Contents (Elt F) → (⟨S4x4x41x16x44x3, .f32⟩ : BufTy).Contents (Elt F)),
    StableHlo.binary main_v5 main_v7 main_v8 (Host.divf : (⟨S4x4x41x16x44x3, .f32⟩ : BufTy).Contents (Elt F) → (⟨S4x4x41x16x44x3, .f32⟩ : BufTy).Contents (Elt F) → (⟨S4x4x41x16x44x3, .f32⟩ : BufTy).Contents (Elt F)),
    StableHlo.unary main_v8 main_v9 (fptosi 32 : (⟨S4x4x41x16x44x3, .f32⟩ : BufTy).Contents (Elt F) → (⟨S4x4x41x16x44x3, .i32⟩ : BufTy).Contents (Elt F)),
    StableHlo.unary main_v9 main_v10 ((extractStridedSlice S4x4x41x16x44x1 ![0, 0, 0, 0, 0, 0] · slices_S4x4x41x16x44x3_S4x4x41x16x44x1_0_0_0_0_0_0) : (⟨S4x4x41x16x44x3, .i32⟩ : BufTy).Contents (Elt F) → (⟨S4x4x41x16x44x1, .i32⟩ : BufTy).Contents (Elt F)),
    StableHlo.reshape main_v10 main_v11 rfl shapeCasts_S4x4x41x16x44x1_S4x4x41x16x44,
    StableHlo.unary main_v9 main_v12 ((extractStridedSlice S4x4x41x16x44x1 ![0, 0, 0, 0, 0, 1] · slices_S4x4x41x16x44x3_S4x4x41x16x44x1_0_0_0_0_0_1) : (⟨S4x4x41x16x44x3, .i32⟩ : BufTy).Contents (Elt F) → (⟨S4x4x41x16x44x1, .i32⟩ : BufTy).Contents (Elt F)),
    StableHlo.reshape main_v12 main_v13 rfl shapeCasts_S4x4x41x16x44x1_S4x4x41x16x44,
    StableHlo.unary main_v9 main_v14 ((extractStridedSlice S4x4x41x16x44x1 ![0, 0, 0, 0, 0, 2] · slices_S4x4x41x16x44x3_S4x4x41x16x44x1_0_0_0_0_0_2) : (⟨S4x4x41x16x44x3, .i32⟩ : BufTy).Contents (Elt F) → (⟨S4x4x41x16x44x1, .i32⟩ : BufTy).Contents (Elt F)),
    StableHlo.reshape main_v14 main_v15 rfl shapeCasts_S4x4x41x16x44x1_S4x4x41x16x44 ]

/-- Operations 20–43: the kept bits. -/
abbrev opsC : List (HloOp τ sig (Elt F)) :=
  [ StableHlo.nullary main_c (constantI S_ 32 0#32),
    StableHlo.unary main_c main_v16 (broadcastInDim S4x4x41x16x44 ![] bcast_S_S4x4x41x16x44 : (⟨S_, .i32⟩ : BufTy).Contents (Elt F) → (⟨S4x4x41x16x44, .i32⟩ : BufTy).Contents (Elt F)),
    StableHlo.binary main_v11 main_v16 main_v17 (cmpi .sge : (⟨S4x4x41x16x44, .i32⟩ : BufTy).Contents (Elt F) → (⟨S4x4x41x16x44, .i32⟩ : BufTy).Contents (Elt F) → (⟨S4x4x41x16x44, .i1⟩ : BufTy).Contents (Elt F)),
    StableHlo.nullary main_c_2 (constantI S_ 32 200#32),
    StableHlo.unary main_c_2 main_v18 (broadcastInDim S4x4x41x16x44 ![] bcast_S_S4x4x41x16x44 : (⟨S_, .i32⟩ : BufTy).Contents (Elt F) → (⟨S4x4x41x16x44, .i32⟩ : BufTy).Contents (Elt F)),
    StableHlo.binary main_v11 main_v18 main_v19 (cmpi .slt : (⟨S4x4x41x16x44, .i32⟩ : BufTy).Contents (Elt F) → (⟨S4x4x41x16x44, .i32⟩ : BufTy).Contents (Elt F) → (⟨S4x4x41x16x44, .i1⟩ : BufTy).Contents (Elt F)),
    StableHlo.binary main_v17 main_v19 main_v20 (andi : (⟨S4x4x41x16x44, .i1⟩ : BufTy).Contents (Elt F) → (⟨S4x4x41x16x44, .i1⟩ : BufTy).Contents (Elt F) → (⟨S4x4x41x16x44, .i1⟩ : BufTy).Contents (Elt F)),
    StableHlo.nullary main_c_3 (constantI S_ 32 0#32),
    StableHlo.unary main_c_3 main_v21 (broadcastInDim S4x4x41x16x44 ![] bcast_S_S4x4x41x16x44 : (⟨S_, .i32⟩ : BufTy).Contents (Elt F) → (⟨S4x4x41x16x44, .i32⟩ : BufTy).Contents (Elt F)),
    StableHlo.binary main_v13 main_v21 main_v22 (cmpi .sge : (⟨S4x4x41x16x44, .i32⟩ : BufTy).Contents (Elt F) → (⟨S4x4x41x16x44, .i32⟩ : BufTy).Contents (Elt F) → (⟨S4x4x41x16x44, .i1⟩ : BufTy).Contents (Elt F)),
    StableHlo.binary main_v20 main_v22 main_v23 (andi : (⟨S4x4x41x16x44, .i1⟩ : BufTy).Contents (Elt F) → (⟨S4x4x41x16x44, .i1⟩ : BufTy).Contents (Elt F) → (⟨S4x4x41x16x44, .i1⟩ : BufTy).Contents (Elt F)),
    StableHlo.nullary main_c_4 (constantI S_ 32 200#32),
    StableHlo.unary main_c_4 main_v24 (broadcastInDim S4x4x41x16x44 ![] bcast_S_S4x4x41x16x44 : (⟨S_, .i32⟩ : BufTy).Contents (Elt F) → (⟨S4x4x41x16x44, .i32⟩ : BufTy).Contents (Elt F)),
    StableHlo.binary main_v13 main_v24 main_v25 (cmpi .slt : (⟨S4x4x41x16x44, .i32⟩ : BufTy).Contents (Elt F) → (⟨S4x4x41x16x44, .i32⟩ : BufTy).Contents (Elt F) → (⟨S4x4x41x16x44, .i1⟩ : BufTy).Contents (Elt F)),
    StableHlo.binary main_v23 main_v25 main_v26 (andi : (⟨S4x4x41x16x44, .i1⟩ : BufTy).Contents (Elt F) → (⟨S4x4x41x16x44, .i1⟩ : BufTy).Contents (Elt F) → (⟨S4x4x41x16x44, .i1⟩ : BufTy).Contents (Elt F)),
    StableHlo.nullary main_c_5 (constantI S_ 32 0#32),
    StableHlo.unary main_c_5 main_v27 (broadcastInDim S4x4x41x16x44 ![] bcast_S_S4x4x41x16x44 : (⟨S_, .i32⟩ : BufTy).Contents (Elt F) → (⟨S4x4x41x16x44, .i32⟩ : BufTy).Contents (Elt F)),
    StableHlo.binary main_v15 main_v27 main_v28 (cmpi .sge : (⟨S4x4x41x16x44, .i32⟩ : BufTy).Contents (Elt F) → (⟨S4x4x41x16x44, .i32⟩ : BufTy).Contents (Elt F) → (⟨S4x4x41x16x44, .i1⟩ : BufTy).Contents (Elt F)),
    StableHlo.binary main_v26 main_v28 main_v29 (andi : (⟨S4x4x41x16x44, .i1⟩ : BufTy).Contents (Elt F) → (⟨S4x4x41x16x44, .i1⟩ : BufTy).Contents (Elt F) → (⟨S4x4x41x16x44, .i1⟩ : BufTy).Contents (Elt F)),
    StableHlo.nullary main_c_6 (constantI S_ 32 1#32),
    StableHlo.unary main_c_6 main_v30 (broadcastInDim S4x4x41x16x44 ![] bcast_S_S4x4x41x16x44 : (⟨S_, .i32⟩ : BufTy).Contents (Elt F) → (⟨S4x4x41x16x44, .i32⟩ : BufTy).Contents (Elt F)),
    StableHlo.binary main_v15 main_v30 main_v31 (cmpi .slt : (⟨S4x4x41x16x44, .i32⟩ : BufTy).Contents (Elt F) → (⟨S4x4x41x16x44, .i32⟩ : BufTy).Contents (Elt F) → (⟨S4x4x41x16x44, .i1⟩ : BufTy).Contents (Elt F)),
    StableHlo.binary main_v29 main_v31 main_v32 (andi : (⟨S4x4x41x16x44, .i1⟩ : BufTy).Contents (Elt F) → (⟨S4x4x41x16x44, .i1⟩ : BufTy).Contents (Elt F) → (⟨S4x4x41x16x44, .i1⟩ : BufTy).Contents (Elt F)),
    StableHlo.binary main_v32 main_arg1 main_v33 (andi : (⟨S4x4x41x16x44, .i1⟩ : BufTy).Contents (Elt F) → (⟨S4x4x41x16x44, .i1⟩ : BufTy).Contents (Elt F) → (⟨S4x4x41x16x44, .i1⟩ : BufTy).Contents (Elt F)) ]

/-- Operations 44–62: the segment numbers (the outlined select's three operations listed at its call). -/
abbrev opsD : List (HloOp τ sig (Elt F)) :=
  [ StableHlo.nullary main_v34 (iotaInDim S4 32 0),
    StableHlo.reshape main_v34 main_v35 rfl shapeCasts_S4_S4x1x1x1x1,
    StableHlo.nullary main_c_7 (constantI S_ 32 200#32),
    StableHlo.unary main_c_7 main_v36 (broadcastInDim S4x1x1x1x1 ![] bcast_S_S4x1x1x1x1 : (⟨S_, .i32⟩ : BufTy).Contents (Elt F) → (⟨S4x1x1x1x1, .i32⟩ : BufTy).Contents (Elt F)),
    StableHlo.binary main_v35 main_v36 main_v37 (muli : (⟨S4x1x1x1x1, .i32⟩ : BufTy).Contents (Elt F) → (⟨S4x1x1x1x1, .i32⟩ : BufTy).Contents (Elt F) → (⟨S4x1x1x1x1, .i32⟩ : BufTy).Contents (Elt F)),
    StableHlo.unary main_v37 main_v38 (broadcastInDim S4x4x41x16x44 ![0, 1, 2, 3, 4] bcast_S4x1x1x1x1_S4x4x41x16x44_0_1_2_3_4 : (⟨S4x1x1x1x1, .i32⟩ : BufTy).Contents (Elt F) → (⟨S4x4x41x16x44, .i32⟩ : BufTy).Contents (Elt F)),
    StableHlo.binary main_v38 main_v11 main_v39 (addi : (⟨S4x4x41x16x44, .i32⟩ : BufTy).Contents (Elt F) → (⟨S4x4x41x16x44, .i32⟩ : BufTy).Contents (Elt F) → (⟨S4x4x41x16x44, .i32⟩ : BufTy).Contents (Elt F)),
    StableHlo.nullary main_c_8 (constantI S_ 32 200#32),
    StableHlo.unary main_c_8 main_v40 (broadcastInDim S4x4x41x16x44 ![] bcast_S_S4x4x41x16x44 : (⟨S_, .i32⟩ : BufTy).Contents (Elt F) → (⟨S4x4x41x16x44, .i32⟩ : BufTy).Contents (Elt F)),
    StableHlo.binary main_v39 main_v40 main_v41 (muli : (⟨S4x4x41x16x44, .i32⟩ : BufTy).Contents (Elt F) → (⟨S4x4x41x16x44, .i32⟩ : BufTy).Contents (Elt F) → (⟨S4x4x41x16x44, .i32⟩ : BufTy).Contents (Elt F)),
    StableHlo.binary main_v41 main_v13 main_v42 (addi : (⟨S4x4x41x16x44, .i32⟩ : BufTy).Contents (Elt F) → (⟨S4x4x41x16x44, .i32⟩ : BufTy).Contents (Elt F) → (⟨S4x4x41x16x44, .i32⟩ : BufTy).Contents (Elt F)),
    StableHlo.nullary main_c_9 (constantI S_ 32 1#32),
    StableHlo.unary main_c_9 main_v43 (broadcastInDim S4x4x41x16x44 ![] bcast_S_S4x4x41x16x44 : (⟨S_, .i32⟩ : BufTy).Contents (Elt F) → (⟨S4x4x41x16x44, .i32⟩ : BufTy).Contents (Elt F)),
    StableHlo.binary main_v42 main_v43 main_v44 (muli : (⟨S4x4x41x16x44, .i32⟩ : BufTy).Contents (Elt F) → (⟨S4x4x41x16x44, .i32⟩ : BufTy).Contents (Elt F) → (⟨S4x4x41x16x44, .i32⟩ : BufTy).Contents (Elt F)),
    StableHlo.binary main_v44 main_v15 main_v45 (addi : (⟨S4x4x41x16x44, .i32⟩ : BufTy).Contents (Elt F) → (⟨S4x4x41x16x44, .i32⟩ : BufTy).Contents (Elt F) → (⟨S4x4x41x16x44, .i32⟩ : BufTy).Contents (Elt F)),
    StableHlo.nullary main_c_10 (constantI S_ 32 160000#32),
    StableHlo.TRef.unary (.of main_c_10) main_call0.v0 id,
    StableHlo.TRef.unary main_call0.v0 main_call0.v1 (broadcastInDim S4x4x41x16x44 ![] bcast_S_S4x4x41x16x44),
    StableHlo.TRef.ternary (.of main_v33) (.of main_v45) main_call0.v1 main_call0.v2 select ]

/-- Operations 63–75: the tail. -/
abbrev opsE : List (HloOp τ sig (Elt F)) :=
  [ StableHlo.reshape main_arg2 main_v47 rfl shapeCasts_S4x4x41x16x44x80_S461824x80,
    StableHlo.reshape main_v46 main_v48 rfl shapeCasts_S4x4x41x16x44_S461824,
    StableHlo.nullary main_cst_11 (constant S_ .f32 0x00000000#32),
    StableHlo.unary main_cst_11 main_v49 (broadcastInDim S160001x80 ![] bcast_S_S160001x80 : (⟨S_, .f32⟩ : BufTy).Contents (Elt F) → (⟨S160001x80, .f32⟩ : BufTy).Contents (Elt F)),
    StableHlo.unary main_v48 main_v50 (broadcastInDim S461824x1 ![0] bcast_S461824_S461824x1_0 : (⟨S461824, .i32⟩ : BufTy).Contents (Elt F) → (⟨S461824x1, .i32⟩ : BufTy).Contents (Elt F)),
    StableHlo.ternary main_v49 main_v50 main_v47 main_v51 ((fun x i u => Host.scatterAdd scatter_S160001x80_S461824x1_S461824x80_1_0_0_1 x i u) : (⟨S160001x80, .f32⟩ : BufTy).Contents (Elt F) → (⟨S461824x1, .i32⟩ : BufTy).Contents (Elt F) → (⟨S461824x80, .f32⟩ : BufTy).Contents (Elt F) → (⟨S160001x80, .f32⟩ : BufTy).Contents (Elt F)),
    StableHlo.unary main_v51 main_v52 ((extractStridedSlice S160000x80 ![0, 0] · slices_S160001x80_S160000x80_0_0) : (⟨S160001x80, .f32⟩ : BufTy).Contents (Elt F) → (⟨S160000x80, .f32⟩ : BufTy).Contents (Elt F)),
    StableHlo.reshape main_v52 main_v53 rfl shapeCasts_S160000x80_S4x200x200x1x80,
    StableHlo.unary main_v53 main_v54 ((transpose S4x1x80x200x200 [0, 3, 4, 1, 2] · transposes_S4x200x200x1x80_S4x1x80x200x200_0_3_4_1_2) : (⟨S4x200x200x1x80, .f32⟩ : BufTy).Contents (Elt F) → (⟨S4x1x80x200x200, .f32⟩ : BufTy).Contents (Elt F)),
    StableHlo.reshape main_v54 main_v55 rfl shapeCasts_S4x1x80x200x200_S4x80x200x200,
    StableHlo.nullary main_cst_12 (constant S_ .f32 0x40800000#32),
    StableHlo.unary main_cst_12 main_v56 (broadcastInDim S4x80x200x200 ![] bcast_S_S4x80x200x200 : (⟨S_, .f32⟩ : BufTy).Contents (Elt F) → (⟨S4x80x200x200, .f32⟩ : BufTy).Contents (Elt F)),
    StableHlo.binary main_v55 main_v56 main_v57 (Host.divf : (⟨S4x80x200x200, .f32⟩ : BufTy).Contents (Elt F) → (⟨S4x80x200x200, .f32⟩ : BufTy).Contents (Elt F) → (⟨S4x80x200x200, .f32⟩ : BufTy).Contents (Elt F)) ]

/-- All 75 operations of the program, in order. -/
abbrev ops : List (HloOp τ sig (Elt F)) :=
  [ StableHlo.nullary main_cst (fun i => FloatOps.ofBits .f32 (lit0 (S3.rowMajor i))),
    StableHlo.nullary main_cst_0 (fun i => FloatOps.ofBits .f32 (lit1 (S3.rowMajor i))),
    StableHlo.nullary main_cst_1 (constant S_ .f32 0x40000000#32),
    StableHlo.unary main_cst_1 main_v0 (broadcastInDim S3 ![] bcast_S_S3 : (⟨S_, .f32⟩ : BufTy).Contents (Elt F) → (⟨S3, .f32⟩ : BufTy).Contents (Elt F)),
    StableHlo.binary main_cst main_v0 main_v1 (Host.divf : (⟨S3, .f32⟩ : BufTy).Contents (Elt F) → (⟨S3, .f32⟩ : BufTy).Contents (Elt F) → (⟨S3, .f32⟩ : BufTy).Contents (Elt F)),
    StableHlo.binary main_cst_0 main_v1 main_v2 (subf : (⟨S3, .f32⟩ : BufTy).Contents (Elt F) → (⟨S3, .f32⟩ : BufTy).Contents (Elt F) → (⟨S3, .f32⟩ : BufTy).Contents (Elt F)),
    StableHlo.unary main_v2 main_v3 (broadcastInDim S1x1x1x1x1x3 ![5] bcast_S3_S1x1x1x1x1x3_5 : (⟨S3, .f32⟩ : BufTy).Contents (Elt F) → (⟨S1x1x1x1x1x3, .f32⟩ : BufTy).Contents (Elt F)),
    StableHlo.unary main_v3 main_v4 (broadcastInDim S4x4x41x16x44x3 ![0, 1, 2, 3, 4, 5] bcast_S1x1x1x1x1x3_S4x4x41x16x44x3_0_1_2_3_4_5 : (⟨S1x1x1x1x1x3, .f32⟩ : BufTy).Contents (Elt F) → (⟨S4x4x41x16x44x3, .f32⟩ : BufTy).Contents (Elt F)),
    StableHlo.binary main_arg0 main_v4 main_v5 (subf : (⟨S4x4x41x16x44x3, .f32⟩ : BufTy).Contents (Elt F) → (⟨S4x4x41x16x44x3, .f32⟩ : BufTy).Contents (Elt F) → (⟨S4x4x41x16x44x3, .f32⟩ : BufTy).Contents (Elt F)),
    StableHlo.unary main_cst main_v6 (broadcastInDim S1x1x1x1x1x3 ![5] bcast_S3_S1x1x1x1x1x3_5 : (⟨S3, .f32⟩ : BufTy).Contents (Elt F) → (⟨S1x1x1x1x1x3, .f32⟩ : BufTy).Contents (Elt F)),
    StableHlo.unary main_v6 main_v7 (broadcastInDim S4x4x41x16x44x3 ![0, 1, 2, 3, 4, 5] bcast_S1x1x1x1x1x3_S4x4x41x16x44x3_0_1_2_3_4_5 : (⟨S1x1x1x1x1x3, .f32⟩ : BufTy).Contents (Elt F) → (⟨S4x4x41x16x44x3, .f32⟩ : BufTy).Contents (Elt F)),
    StableHlo.binary main_v5 main_v7 main_v8 (Host.divf : (⟨S4x4x41x16x44x3, .f32⟩ : BufTy).Contents (Elt F) → (⟨S4x4x41x16x44x3, .f32⟩ : BufTy).Contents (Elt F) → (⟨S4x4x41x16x44x3, .f32⟩ : BufTy).Contents (Elt F)),
    StableHlo.unary main_v8 main_v9 (fptosi 32 : (⟨S4x4x41x16x44x3, .f32⟩ : BufTy).Contents (Elt F) → (⟨S4x4x41x16x44x3, .i32⟩ : BufTy).Contents (Elt F)),
    StableHlo.unary main_v9 main_v10 ((extractStridedSlice S4x4x41x16x44x1 ![0, 0, 0, 0, 0, 0] · slices_S4x4x41x16x44x3_S4x4x41x16x44x1_0_0_0_0_0_0) : (⟨S4x4x41x16x44x3, .i32⟩ : BufTy).Contents (Elt F) → (⟨S4x4x41x16x44x1, .i32⟩ : BufTy).Contents (Elt F)),
    StableHlo.reshape main_v10 main_v11 rfl shapeCasts_S4x4x41x16x44x1_S4x4x41x16x44,
    StableHlo.unary main_v9 main_v12 ((extractStridedSlice S4x4x41x16x44x1 ![0, 0, 0, 0, 0, 1] · slices_S4x4x41x16x44x3_S4x4x41x16x44x1_0_0_0_0_0_1) : (⟨S4x4x41x16x44x3, .i32⟩ : BufTy).Contents (Elt F) → (⟨S4x4x41x16x44x1, .i32⟩ : BufTy).Contents (Elt F)),
    StableHlo.reshape main_v12 main_v13 rfl shapeCasts_S4x4x41x16x44x1_S4x4x41x16x44,
    StableHlo.unary main_v9 main_v14 ((extractStridedSlice S4x4x41x16x44x1 ![0, 0, 0, 0, 0, 2] · slices_S4x4x41x16x44x3_S4x4x41x16x44x1_0_0_0_0_0_2) : (⟨S4x4x41x16x44x3, .i32⟩ : BufTy).Contents (Elt F) → (⟨S4x4x41x16x44x1, .i32⟩ : BufTy).Contents (Elt F)),
    StableHlo.reshape main_v14 main_v15 rfl shapeCasts_S4x4x41x16x44x1_S4x4x41x16x44,
    StableHlo.nullary main_c (constantI S_ 32 0#32),
    StableHlo.unary main_c main_v16 (broadcastInDim S4x4x41x16x44 ![] bcast_S_S4x4x41x16x44 : (⟨S_, .i32⟩ : BufTy).Contents (Elt F) → (⟨S4x4x41x16x44, .i32⟩ : BufTy).Contents (Elt F)),
    StableHlo.binary main_v11 main_v16 main_v17 (cmpi .sge : (⟨S4x4x41x16x44, .i32⟩ : BufTy).Contents (Elt F) → (⟨S4x4x41x16x44, .i32⟩ : BufTy).Contents (Elt F) → (⟨S4x4x41x16x44, .i1⟩ : BufTy).Contents (Elt F)),
    StableHlo.nullary main_c_2 (constantI S_ 32 200#32),
    StableHlo.unary main_c_2 main_v18 (broadcastInDim S4x4x41x16x44 ![] bcast_S_S4x4x41x16x44 : (⟨S_, .i32⟩ : BufTy).Contents (Elt F) → (⟨S4x4x41x16x44, .i32⟩ : BufTy).Contents (Elt F)),
    StableHlo.binary main_v11 main_v18 main_v19 (cmpi .slt : (⟨S4x4x41x16x44, .i32⟩ : BufTy).Contents (Elt F) → (⟨S4x4x41x16x44, .i32⟩ : BufTy).Contents (Elt F) → (⟨S4x4x41x16x44, .i1⟩ : BufTy).Contents (Elt F)),
    StableHlo.binary main_v17 main_v19 main_v20 (andi : (⟨S4x4x41x16x44, .i1⟩ : BufTy).Contents (Elt F) → (⟨S4x4x41x16x44, .i1⟩ : BufTy).Contents (Elt F) → (⟨S4x4x41x16x44, .i1⟩ : BufTy).Contents (Elt F)),
    StableHlo.nullary main_c_3 (constantI S_ 32 0#32),
    StableHlo.unary main_c_3 main_v21 (broadcastInDim S4x4x41x16x44 ![] bcast_S_S4x4x41x16x44 : (⟨S_, .i32⟩ : BufTy).Contents (Elt F) → (⟨S4x4x41x16x44, .i32⟩ : BufTy).Contents (Elt F)),
    StableHlo.binary main_v13 main_v21 main_v22 (cmpi .sge : (⟨S4x4x41x16x44, .i32⟩ : BufTy).Contents (Elt F) → (⟨S4x4x41x16x44, .i32⟩ : BufTy).Contents (Elt F) → (⟨S4x4x41x16x44, .i1⟩ : BufTy).Contents (Elt F)),
    StableHlo.binary main_v20 main_v22 main_v23 (andi : (⟨S4x4x41x16x44, .i1⟩ : BufTy).Contents (Elt F) → (⟨S4x4x41x16x44, .i1⟩ : BufTy).Contents (Elt F) → (⟨S4x4x41x16x44, .i1⟩ : BufTy).Contents (Elt F)),
    StableHlo.nullary main_c_4 (constantI S_ 32 200#32),
    StableHlo.unary main_c_4 main_v24 (broadcastInDim S4x4x41x16x44 ![] bcast_S_S4x4x41x16x44 : (⟨S_, .i32⟩ : BufTy).Contents (Elt F) → (⟨S4x4x41x16x44, .i32⟩ : BufTy).Contents (Elt F)),
    StableHlo.binary main_v13 main_v24 main_v25 (cmpi .slt : (⟨S4x4x41x16x44, .i32⟩ : BufTy).Contents (Elt F) → (⟨S4x4x41x16x44, .i32⟩ : BufTy).Contents (Elt F) → (⟨S4x4x41x16x44, .i1⟩ : BufTy).Contents (Elt F)),
    StableHlo.binary main_v23 main_v25 main_v26 (andi : (⟨S4x4x41x16x44, .i1⟩ : BufTy).Contents (Elt F) → (⟨S4x4x41x16x44, .i1⟩ : BufTy).Contents (Elt F) → (⟨S4x4x41x16x44, .i1⟩ : BufTy).Contents (Elt F)),
    StableHlo.nullary main_c_5 (constantI S_ 32 0#32),
    StableHlo.unary main_c_5 main_v27 (broadcastInDim S4x4x41x16x44 ![] bcast_S_S4x4x41x16x44 : (⟨S_, .i32⟩ : BufTy).Contents (Elt F) → (⟨S4x4x41x16x44, .i32⟩ : BufTy).Contents (Elt F)),
    StableHlo.binary main_v15 main_v27 main_v28 (cmpi .sge : (⟨S4x4x41x16x44, .i32⟩ : BufTy).Contents (Elt F) → (⟨S4x4x41x16x44, .i32⟩ : BufTy).Contents (Elt F) → (⟨S4x4x41x16x44, .i1⟩ : BufTy).Contents (Elt F)),
    StableHlo.binary main_v26 main_v28 main_v29 (andi : (⟨S4x4x41x16x44, .i1⟩ : BufTy).Contents (Elt F) → (⟨S4x4x41x16x44, .i1⟩ : BufTy).Contents (Elt F) → (⟨S4x4x41x16x44, .i1⟩ : BufTy).Contents (Elt F)),
    StableHlo.nullary main_c_6 (constantI S_ 32 1#32),
    StableHlo.unary main_c_6 main_v30 (broadcastInDim S4x4x41x16x44 ![] bcast_S_S4x4x41x16x44 : (⟨S_, .i32⟩ : BufTy).Contents (Elt F) → (⟨S4x4x41x16x44, .i32⟩ : BufTy).Contents (Elt F)),
    StableHlo.binary main_v15 main_v30 main_v31 (cmpi .slt : (⟨S4x4x41x16x44, .i32⟩ : BufTy).Contents (Elt F) → (⟨S4x4x41x16x44, .i32⟩ : BufTy).Contents (Elt F) → (⟨S4x4x41x16x44, .i1⟩ : BufTy).Contents (Elt F)),
    StableHlo.binary main_v29 main_v31 main_v32 (andi : (⟨S4x4x41x16x44, .i1⟩ : BufTy).Contents (Elt F) → (⟨S4x4x41x16x44, .i1⟩ : BufTy).Contents (Elt F) → (⟨S4x4x41x16x44, .i1⟩ : BufTy).Contents (Elt F)),
    StableHlo.binary main_v32 main_arg1 main_v33 (andi : (⟨S4x4x41x16x44, .i1⟩ : BufTy).Contents (Elt F) → (⟨S4x4x41x16x44, .i1⟩ : BufTy).Contents (Elt F) → (⟨S4x4x41x16x44, .i1⟩ : BufTy).Contents (Elt F)),
    StableHlo.nullary main_v34 (iotaInDim S4 32 0),
    StableHlo.reshape main_v34 main_v35 rfl shapeCasts_S4_S4x1x1x1x1,
    StableHlo.nullary main_c_7 (constantI S_ 32 200#32),
    StableHlo.unary main_c_7 main_v36 (broadcastInDim S4x1x1x1x1 ![] bcast_S_S4x1x1x1x1 : (⟨S_, .i32⟩ : BufTy).Contents (Elt F) → (⟨S4x1x1x1x1, .i32⟩ : BufTy).Contents (Elt F)),
    StableHlo.binary main_v35 main_v36 main_v37 (muli : (⟨S4x1x1x1x1, .i32⟩ : BufTy).Contents (Elt F) → (⟨S4x1x1x1x1, .i32⟩ : BufTy).Contents (Elt F) → (⟨S4x1x1x1x1, .i32⟩ : BufTy).Contents (Elt F)),
    StableHlo.unary main_v37 main_v38 (broadcastInDim S4x4x41x16x44 ![0, 1, 2, 3, 4] bcast_S4x1x1x1x1_S4x4x41x16x44_0_1_2_3_4 : (⟨S4x1x1x1x1, .i32⟩ : BufTy).Contents (Elt F) → (⟨S4x4x41x16x44, .i32⟩ : BufTy).Contents (Elt F)),
    StableHlo.binary main_v38 main_v11 main_v39 (addi : (⟨S4x4x41x16x44, .i32⟩ : BufTy).Contents (Elt F) → (⟨S4x4x41x16x44, .i32⟩ : BufTy).Contents (Elt F) → (⟨S4x4x41x16x44, .i32⟩ : BufTy).Contents (Elt F)),
    StableHlo.nullary main_c_8 (constantI S_ 32 200#32),
    StableHlo.unary main_c_8 main_v40 (broadcastInDim S4x4x41x16x44 ![] bcast_S_S4x4x41x16x44 : (⟨S_, .i32⟩ : BufTy).Contents (Elt F) → (⟨S4x4x41x16x44, .i32⟩ : BufTy).Contents (Elt F)),
    StableHlo.binary main_v39 main_v40 main_v41 (muli : (⟨S4x4x41x16x44, .i32⟩ : BufTy).Contents (Elt F) → (⟨S4x4x41x16x44, .i32⟩ : BufTy).Contents (Elt F) → (⟨S4x4x41x16x44, .i32⟩ : BufTy).Contents (Elt F)),
    StableHlo.binary main_v41 main_v13 main_v42 (addi : (⟨S4x4x41x16x44, .i32⟩ : BufTy).Contents (Elt F) → (⟨S4x4x41x16x44, .i32⟩ : BufTy).Contents (Elt F) → (⟨S4x4x41x16x44, .i32⟩ : BufTy).Contents (Elt F)),
    StableHlo.nullary main_c_9 (constantI S_ 32 1#32),
    StableHlo.unary main_c_9 main_v43 (broadcastInDim S4x4x41x16x44 ![] bcast_S_S4x4x41x16x44 : (⟨S_, .i32⟩ : BufTy).Contents (Elt F) → (⟨S4x4x41x16x44, .i32⟩ : BufTy).Contents (Elt F)),
    StableHlo.binary main_v42 main_v43 main_v44 (muli : (⟨S4x4x41x16x44, .i32⟩ : BufTy).Contents (Elt F) → (⟨S4x4x41x16x44, .i32⟩ : BufTy).Contents (Elt F) → (⟨S4x4x41x16x44, .i32⟩ : BufTy).Contents (Elt F)),
    StableHlo.binary main_v44 main_v15 main_v45 (addi : (⟨S4x4x41x16x44, .i32⟩ : BufTy).Contents (Elt F) → (⟨S4x4x41x16x44, .i32⟩ : BufTy).Contents (Elt F) → (⟨S4x4x41x16x44, .i32⟩ : BufTy).Contents (Elt F)),
    StableHlo.nullary main_c_10 (constantI S_ 32 160000#32),
    StableHlo.TRef.unary (.of main_c_10) main_call0.v0 id,
    StableHlo.TRef.unary main_call0.v0 main_call0.v1 (broadcastInDim S4x4x41x16x44 ![] bcast_S_S4x4x41x16x44),
    StableHlo.TRef.ternary (.of main_v33) (.of main_v45) main_call0.v1 main_call0.v2 select,
    StableHlo.reshape main_arg2 main_v47 rfl shapeCasts_S4x4x41x16x44x80_S461824x80,
    StableHlo.reshape main_v46 main_v48 rfl shapeCasts_S4x4x41x16x44_S461824,
    StableHlo.nullary main_cst_11 (constant S_ .f32 0x00000000#32),
    StableHlo.unary main_cst_11 main_v49 (broadcastInDim S160001x80 ![] bcast_S_S160001x80 : (⟨S_, .f32⟩ : BufTy).Contents (Elt F) → (⟨S160001x80, .f32⟩ : BufTy).Contents (Elt F)),
    StableHlo.unary main_v48 main_v50 (broadcastInDim S461824x1 ![0] bcast_S461824_S461824x1_0 : (⟨S461824, .i32⟩ : BufTy).Contents (Elt F) → (⟨S461824x1, .i32⟩ : BufTy).Contents (Elt F)),
    StableHlo.ternary main_v49 main_v50 main_v47 main_v51 ((fun x i u => Host.scatterAdd scatter_S160001x80_S461824x1_S461824x80_1_0_0_1 x i u) : (⟨S160001x80, .f32⟩ : BufTy).Contents (Elt F) → (⟨S461824x1, .i32⟩ : BufTy).Contents (Elt F) → (⟨S461824x80, .f32⟩ : BufTy).Contents (Elt F) → (⟨S160001x80, .f32⟩ : BufTy).Contents (Elt F)),
    StableHlo.unary main_v51 main_v52 ((extractStridedSlice S160000x80 ![0, 0] · slices_S160001x80_S160000x80_0_0) : (⟨S160001x80, .f32⟩ : BufTy).Contents (Elt F) → (⟨S160000x80, .f32⟩ : BufTy).Contents (Elt F)),
    StableHlo.reshape main_v52 main_v53 rfl shapeCasts_S160000x80_S4x200x200x1x80,
    StableHlo.unary main_v53 main_v54 ((transpose S4x1x80x200x200 [0, 3, 4, 1, 2] · transposes_S4x200x200x1x80_S4x1x80x200x200_0_3_4_1_2) : (⟨S4x200x200x1x80, .f32⟩ : BufTy).Contents (Elt F) → (⟨S4x1x80x200x200, .f32⟩ : BufTy).Contents (Elt F)),
    StableHlo.reshape main_v54 main_v55 rfl shapeCasts_S4x1x80x200x200_S4x80x200x200,
    StableHlo.nullary main_cst_12 (constant S_ .f32 0x40800000#32),
    StableHlo.unary main_cst_12 main_v56 (broadcastInDim S4x80x200x200 ![] bcast_S_S4x80x200x200 : (⟨S_, .f32⟩ : BufTy).Contents (Elt F) → (⟨S4x80x200x200, .f32⟩ : BufTy).Contents (Elt F)),
    StableHlo.binary main_v55 main_v56 main_v57 (Host.divf : (⟨S4x80x200x200, .f32⟩ : BufTy).Contents (Elt F) → (⟨S4x80x200x200, .f32⟩ : BufTy).Contents (Elt F) → (⟨S4x80x200x200, .f32⟩ : BufTy).Contents (Elt F)) ]

/-- Two lines in a row: the second's fold over the first's. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole line is its four stretches in a row. -/
theorem ops_eq : (ops : List (HloOp τ sig (Elt F))) = opsA ++ (opsC ++ (opsD ++ opsE)) := rfl

set_option maxRecDepth 2048 in
/-- The program is that straight line: the two windows and the outlined select unfolded at its call, the
    sequencing reassociated. -/
theorem main_eq (c : Dev nD) : main (F := F) c = seq ops := by
  simp only [main, main_part0, main_part1, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., binary_bufs_sub ..,
    unary_bufs_sub .., unary_bufs_sub .., binary_bufs_sub .., unary_bufs_sub .., unary_bufs_sub .., binary_bufs_sub ..,
    unary_bufs_sub .., unary_bufs_sub .., reshape_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., binary_bufs_sub .., nullary_bufs_sub .., unary_bufs_sub .., binary_bufs_sub .., binary_bufs_sub ..,
    nullary_bufs_sub .., unary_bufs_sub .., binary_bufs_sub .., binary_bufs_sub .., nullary_bufs_sub .., unary_bufs_sub ..,
    binary_bufs_sub .., binary_bufs_sub .., nullary_bufs_sub .., unary_bufs_sub .., binary_bufs_sub .., binary_bufs_sub ..,
    binary_bufs_sub .., nullary_bufs_sub .., reshape_bufs_sub .., nullary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., binary_bufs_sub .., nullary_bufs_sub .., unary_bufs_sub ..,
    unary_bufs_sub .., ternary_bufs_sub .., reshape_bufs_sub .., reshape_bufs_sub .., nullary_bufs_sub .., unary_bufs_sub ..,
    unary_bufs_sub .., ternary_bufs_sub .., unary_bufs_sub .., reshape_bufs_sub .., unary_bufs_sub .., reshape_bufs_sub ..,
    nullary_bufs_sub .., unary_bufs_sub .., binary_bufs_sub ..⟩

/-! ## The stretches, each over an arbitrary valuation -/

section Stretches

variable (W : Valuation τ sig (Elt Ideal))

/-- Operations 1–19 end with the three components of the cell coordinates of the geometry argument. -/
theorem A_v11 : after (opsA (F := Ideal)) W (Proc.devRef .tc main_v11) = Cert.Coords.gxOf (W (Proc.devRef .tc main_arg0)) := by
  after_results_simp; rfl
theorem A_v13 : after (opsA (F := Ideal)) W (Proc.devRef .tc main_v13) = Cert.Coords.gyOf (W (Proc.devRef .tc main_arg0)) := by
  after_results_simp; rfl
theorem A_v15 : after (opsA (F := Ideal)) W (Proc.devRef .tc main_v15) = Cert.Coords.gzOf (W (Proc.devRef .tc main_arg0)) := by
  after_results_simp; rfl
theorem A_arg0 : after (opsA (F := Ideal)) W (Proc.devRef .tc main_arg0) = W (Proc.devRef .tc main_arg0) := by after_results_simp
theorem A_arg1 : after (opsA (F := Ideal)) W (Proc.devRef .tc main_arg1) = W (Proc.devRef .tc main_arg1) := by after_results_simp
theorem A_arg2 : after (opsA (F := Ideal)) W (Proc.devRef .tc main_arg2) = W (Proc.devRef .tc main_arg2) := by after_results_simp

/-- Operations 20–43 end with the kept bits of the three components and the validity argument. -/
theorem C_v33 : after (opsC (F := Ideal)) W (Proc.devRef .tc main_v33)
    = Stg.keptOf (W (Proc.devRef .tc main_v11)) (W (Proc.devRef .tc main_v13)) (W (Proc.devRef .tc main_v15)) (W (Proc.devRef .tc main_arg1)) := by
  after_results_simp; rfl
theorem C_v11 : after (opsC (F := Ideal)) W (Proc.devRef .tc main_v11) = W (Proc.devRef .tc main_v11) := by after_results_simp
theorem C_v13 : after (opsC (F := Ideal)) W (Proc.devRef .tc main_v13) = W (Proc.devRef .tc main_v13) := by after_results_simp
theorem C_v15 : after (opsC (F := Ideal)) W (Proc.devRef .tc main_v15) = W (Proc.devRef .tc main_v15) := by after_results_simp
theorem C_arg0 : after (opsC (F := Ideal)) W (Proc.devRef .tc main_arg0) = W (Proc.devRef .tc main_arg0) := by after_results_simp
theorem C_arg1 : after (opsC (F := Ideal)) W (Proc.devRef .tc main_arg1) = W (Proc.devRef .tc main_arg1) := by after_results_simp
theorem C_arg2 : after (opsC (F := Ideal)) W (Proc.devRef .tc main_arg2) = W (Proc.devRef .tc main_arg2) := by after_results_simp

/-- Operations 44–62 end with the select, by the kept bits, between the global cell number and the dummy row. -/
theorem D_v46 : after (opsD (F := Ideal)) W (Proc.devRef .tc main_v46)
    = select (W (Proc.devRef .tc main_v33))
        (addi (muli (addi (muli (addi Stg.batch200 (W (Proc.devRef .tc main_v11))) (Stg.kP 200#32)) (W (Proc.devRef .tc main_v13))) (Stg.kP 1#32))
          (W (Proc.devRef .tc main_v15)))
        (broadcastInDim S4x4x41x16x44 ![] bcast_S_S4x4x41x16x44 (id (constantI S_ 32 160000#32))) := by
  after_results_simp; rfl
theorem D_arg0 : after (opsD (F := Ideal)) W (Proc.devRef .tc main_arg0) = W (Proc.devRef .tc main_arg0) := by after_results_simp
theorem D_arg1 : after (opsD (F := Ideal)) W (Proc.devRef .tc main_arg1) = W (Proc.devRef .tc main_arg1) := by after_results_simp
theorem D_arg2 : after (opsD (F := Ideal)) W (Proc.devRef .tc main_arg2) = W (Proc.devRef .tc main_arg2) := by after_results_simp

/-- Operations 63–75 end with the tail stage of the segment numbers and the feature argument. -/
theorem E_v57 : after (opsE (F := Ideal)) W (Proc.devRef .tc main_v57) = Stg.tailOf (W (Proc.devRef .tc main_v46)) (W (Proc.devRef .tc main_arg2)) := by
  after_results_simp; rfl
theorem E_arg0 : after (opsE (F := Ideal)) W (Proc.devRef .tc main_arg0) = W (Proc.devRef .tc main_arg0) := by after_results_simp
theorem E_arg1 : after (opsE (F := Ideal)) W (Proc.devRef .tc main_arg1) = W (Proc.devRef .tc main_arg1) := by after_results_simp
theorem E_arg2 : after (opsE (F := Ideal)) W (Proc.devRef .tc main_arg2) = W (Proc.devRef .tc main_arg2) := by after_results_simp

end Stretches

/-! ## The whole line -/

/-- The result after all 75 operations: the stretches composed, each reading what the earlier ones left. -/
theorem out_eq (V : Valuation τ sig (Elt Ideal)) :
    after (ops (F := Ideal)) V (Proc.devRef .tc main_v57)
      = Stg.tailOf (Stg.segOf (Cert.Coords.gxOf (V (Proc.devRef .tc main_arg0))) (Cert.Coords.gyOf (V (Proc.devRef .tc main_arg0)))
          (Cert.Coords.gzOf (V (Proc.devRef .tc main_arg0))) (V (Proc.devRef .tc main_arg1))) (V (Proc.devRef .tc main_arg2)) := by
  rw [ops_eq, after_app, after_app, after_app, E_v57, D_v46, D_arg2, C_v33, C_v11, C_v13, C_v15, C_arg2,
    A_v11, A_v13, A_v15, A_arg1, A_arg2]
  rfl

/-- No operation writes an argument. -/
theorem arg0_eq (V : Valuation τ sig (Elt Ideal)) : after (ops (F := Ideal)) V (Proc.devRef .tc main_arg0) = V (Proc.devRef .tc main_arg0) := by
  rw [ops_eq, after_app, after_app, after_app, E_arg0, D_arg0, C_arg0, A_arg0]
theorem arg1_eq (V : Valuation τ sig (Elt Ideal)) : after (ops (F := Ideal)) V (Proc.devRef .tc main_arg1) = V (Proc.devRef .tc main_arg1) := by
  rw [ops_eq, after_app, after_app, after_app, E_arg1, D_arg1, C_arg1, A_arg1]
theorem arg2_eq (V : Valuation τ sig (Elt Ideal)) : after (ops (F := Ideal)) V (Proc.devRef .tc main_arg2) = V (Proc.devRef .tc main_arg2) := by
  rw [ops_eq, after_app, after_app, after_app, E_arg2, D_arg2, C_arg2, A_arg2]

/-- The reference, run at the extended reals: the result ends at the tail stage of the segment numbers of the cell
    coordinates; the arguments end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57)
        = Stg.tailOf (Stg.segOf (Cert.Coords.gxOf (m ((c.tc : Thread nD τ).loc main_arg0))) (Cert.Coords.gyOf (m ((c.tc : Thread nD τ).loc main_arg0)))
            (Cert.Coords.gzOf (m ((c.tc : Thread nD τ).loc main_arg0))) (m ((c.tc : Thread nD τ).loc main_arg1)))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v57).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefVal.lean ====
import proofs.«120953_j64415919505618_1_alg».proof.Proof.RefStages
import proofs.«120953_j64415919505618_1_alg».proof.Proof.SpecBits
import Idealize.ShloMosaic.Lib.Pipeline.Value
import Idealize.ShloMosaic.Lib.ValueIdx

noncomputable section

namespace Cert.ReferenceIdeal.RefVal

open Idealize.ShloMosaic Idealize.ShloMosaic.ValueIdx
open Cert.ReferenceIdeal

/-- An update lands at operand index i exactly when, on every axis, start plus window coordinate is i's coordinate. -/
private theorem resultIdx?_eq_some_iff {s si u : Shape} (d : ScatterDims s si u) {w : Nat} (j : u.Idx) (idx : IVec si w) (i : s.Idx) :
    d.resultIdx? j idx = some i ↔ ∀ a, d.start j idx a + d.window j a = ((i a).val : ℤ) := by
  unfold ScatterDims.resultIdx?
  split_ifs with h
  · constructor
    · intro e a
      have e' := Option.some.inj e
      rw [← e']
      show _ = (((d.start j idx a + d.window j a).toNat : ℕ) : ℤ)
      rw [Int.toNat_of_nonneg (h a).1]
    · intro e
      congr 1
      funext a
      refine Fin.ext ?_
      show (d.start j idx a + d.window j a).toNat = (i a).val
      rw [e a]; rfl
  · constructor
    · intro e; cases e
    · intro e
      exfalso
      apply h
      intro a
      rw [e a]
      have := (i a).isLt
      constructor
      · omega
      · exact_mod_cast this

private abbrev D := scatter_S160001x80_S461824x1_S461824x80_1_0_0_1

private theorem start_zero (j : S461824x80.Idx) (idx : IVec S461824x1 32) :
    D.start j idx 0 = (idx (ix2 (j 0) 0)).toInt := by
  unfold ScatterDims.start
  rw [dif_pos (show (0 : Fin 2) ∈ D.scatterDimsToOperandDims from List.mem_singleton.mpr rfl)]
  congr 2
  funext b
  refine Fin.ext ?_
  match b with
  | ⟨0, _⟩ => rfl
  | ⟨1, _⟩ => rfl

private theorem start_one (j : S461824x80.Idx) (idx : IVec S461824x1 32) : D.start j idx 1 = 0 := by
  unfold ScatterDims.start
  rw [dif_neg (show ¬ (1 : Fin 2) ∈ D.scatterDimsToOperandDims by decide)]

private theorem window_zero (j : S461824x80.Idx) : D.window j 0 = 0 := by
  unfold ScatterDims.window
  rw [dif_neg (show ¬ (0 : Fin 2) ∈ D.sKept by decide)]

private theorem window_one (j : S461824x80.Idx) : D.window j 1 = (j 1).val := by
  unfold ScatterDims.window
  rw [dif_pos (show (1 : Fin 2) ∈ D.sKept by decide)]
  rfl

/-- The update (n, c) lands at (row, ch) exactly when point n's index word, read signed, is the row, and c is ch. -/
private theorem lands_iff (idx : IVec S461824x1 32) (n : Fin 461824) (c : Fin 80) (row : Fin 160001) (ch : Fin 80) :
    D.resultIdx? (ix2 n c) idx = some (ix2 row ch) ↔ ((idx (ix2 n 0)).toInt = (row.val : ℤ) ∧ c = ch) := by
  rw [resultIdx?_eq_some_iff, Fin.forall_fin_two, start_zero, start_one, window_zero, window_one]
  show ((idx (ix2 n 0)).toInt + ((0 : ℕ) : ℤ) = (row.val : ℤ) ∧ (0 : ℤ) + ((c.val : ℕ) : ℤ) = (ch.val : ℤ)) ↔ _
  constructor
  · rintro ⟨h0, h1⟩
    refine ⟨by omega, Fin.ext (by omega)⟩
  · rintro ⟨h0, h1⟩
    subst h1
    refine ⟨by omega, by omega⟩

/-- The scatter's sum at (row, ch): over the points whose index word is the row, of the update's feature ch. -/
private theorem scatter_sum (idx : IVec S461824x1 32) (upd : S461824x80.Idx → EReal) (row : Fin 160001) (ch : Fin 80) :
    (∑ j ∈ Finset.univ.filter (fun j => D.resultIdx? j idx = some (ix2 row ch)), upd j)
      = ∑ n : Fin 461824, if (idx (ix2 n 0)).toInt = (row.val : ℤ) then upd (ix2 n ch) else 0 := by
  rw [Finset.sum_filter, sum_idx2]
  refine Finset.sum_congr rfl fun n _ => ?_
  by_cases hn : (idx (ix2 n 0)).toInt = (row.val : ℤ)
  · rw [if_pos hn]
    rw [Finset.sum_eq_single ch]
    · rw [if_pos ((lands_iff idx n ch row ch).2 ⟨hn, rfl⟩)]
    · intro c _ hc
      rw [if_neg (fun h => hc ((lands_iff idx n c row ch).1 h).2)]
    · intro h; exact absurd (Finset.mem_univ ch) h
  · rw [if_neg hn]
    refine Finset.sum_eq_zero fun c _ => ?_
    rw [if_neg (fun h => hn ((lands_iff idx n c row ch).1 h).1)]

/-- The batch term at a point: the point's batch coordinate, as a word, times 200. -/
private theorem batch200_apply (p : S4x4x41x16x44.Idx) : Stg.batch200 p = IntOp.muli (BitVec.ofNat 32 (p 0).val) 200#32 := by
  unfold Stg.batch200
  refine (broadcastInDim_apply _ _ _ p (ix5 (p 0) 0 0 0 0) ?_).trans ?_
  · intro a
    match a with
    | ⟨0, _⟩ => rfl
    | ⟨1, _⟩ => rfl
    | ⟨2, _⟩ => rfl
    | ⟨3, _⟩ => rfl
    | ⟨4, _⟩ => rfl
  show IntOp.muli (shapeCast S4x1x1x1x1 (iotaInDim S4 32 0) _ (ix5 (p 0) 0 0 0 0)) 200#32 = _
  congr 1
  refine (shapeCast_apply _ _ _ (ix1 (p 0)) ?_).trans rfl
  rw [Shape.rowMajor_val_one, Shape.rowMajor_val_five]
  show (p 0).val = ((((p 0).val * 1 + 0) * 1 + 0) * 1 + 0) * 1 + 0
  omega

/-- The reference's segment number at a point is the specification's scatter word. -/
private theorem segOf_apply (gx gy gz : IVec S4x4x41x16x44 32) (vm : IVec S4x4x41x16x44 1) (p : S4x4x41x16x44.Idx) :
    Stg.segOf gx gy gz vm p = Cert.Spec.segW gx gy gz vm p := by
  unfold Stg.segOf Cert.Spec.segW
  show Scalar.select (Stg.keptOf gx gy gz vm p)
      (IntOp.addi (IntOp.muli (IntOp.addi (IntOp.muli (IntOp.addi (Stg.batch200 p) (gx p)) 200#32) (gy p)) 1#32) (gz p))
      160000#32 = _
  rw [batch200_apply]
  rfl

/-- The index operand of the scatter at point n: the segment number of the point with flat number n. -/
private theorem idx_apply (gx gy gz : IVec S4x4x41x16x44 32) (vm : IVec S4x4x41x16x44 1) (n : Fin 461824) :
    broadcastInDim S461824x1 ![0] Facts₀.bcast_S461824_S461824x1_0
        (shapeCast S461824 (Stg.segOf gx gy gz vm) Facts₀.shapeCasts_S4x4x41x16x44_S461824) (ix2 n 0)
      = Cert.Spec.segW gx gy gz vm (Cert.Spec.ptOf n) := by
  refine (broadcastInDim_apply _ _ _ _ (ix1 n) ?_).trans ?_
  · intro a
    match a with
    | ⟨0, _⟩ => rfl
  refine (shapeCast_apply _ _ _ (Cert.Spec.ptOf n) ?_).trans (segOf_apply gx gy gz vm _)
  rw [Shape.rowMajor_val_one]
  exact congrArg Fin.val (Equiv.apply_symm_apply Cert.Spec.SP.rowMajor n)

/-- The reference's tail of its segment numbers IS the specification's function. -/
theorem tail_eq_OUT (gx gy gz : IVec S4x4x41x16x44 32) (vm : IVec S4x4x41x16x44 1) (x : FVec Ideal S4x4x41x16x44x80 .f32) :
    Stg.tailOf (Stg.segOf gx gy gz vm) x = Cert.Spec.OUT gx gy gz vm x := by
  funext i
  obtain ⟨b, ch, gxi, gyi, rfl⟩ : ∃ b ch gxi gyi, i = ix4 b ch gxi gyi := ⟨i 0, i 1, i 2, i 3, eq_ix4 i⟩
  have hb := b.isLt
  have hgx := gxi.isLt
  have hgy := gyi.isLt
  have hrow : b.val * 40000 + (gxi.val * 200 + gyi.val) < 160000 := by omega
  have hrow' : b.val * 40000 + (gxi.val * 200 + gyi.val) < 160001 := by omega
  unfold Stg.tailOf Cert.Spec.OUT
  -- the quotient by the constant four is the product with a quarter
  show Ideal.div (shapeCast S4x80x200x200 _ _ (ix4 b ch gxi gyi)) (Ideal.ofBits .f32 0x40800000#32)
      = Cert.Spec.pooled gx gy gz vm x (b.val * 40000 + (gxi.val * 200 + gyi.val)) ch * (((1 / 4 : ℝ)) : EReal)
  rw [Cert.Spec.div_four]
  refine congrArg (fun a : EReal => a * (((1 / 4 : ℝ)) : EReal)) ?_
  -- (b, ch, gx, gy) of the result is (b, 0, ch, gx, gy) of the transposed array: the same row-major position
  refine (shapeCast_apply _ _ (ix4 b ch gxi gyi) (ix5 b (0 : Fin 1) ch gxi gyi) ?_).trans ?_
  · rw [Shape.rowMajor_val_five, Shape.rowMajor_val_four]
    show (((b.val * 1 + 0) * 80 + ch.val) * 200 + gxi.val) * 200 + gyi.val
        = ((b.val * 80 + ch.val) * 200 + gxi.val) * 200 + gyi.val
    omega
  -- which the transpose by [0, 3, 4, 1, 2] reads at (b, gx, gy, 0, ch)
  refine (transpose_apply _ _ _ (ix5 b (0 : Fin 1) ch gxi gyi) (ix5 b gxi gyi (0 : Fin 1) ch) ?_).trans ?_
  · intro a
    match a with
    | ⟨0, _⟩ => rfl
    | ⟨1, _⟩ => rfl
    | ⟨2, _⟩ => rfl
    | ⟨3, _⟩ => rfl
    | ⟨4, _⟩ => rfl
  -- the row b·40000 + gx·200 + gy and the column ch of the 160000 × 80 array
  refine (shapeCast_apply _ _ _ (ix2 (⟨b.val * 40000 + (gxi.val * 200 + gyi.val), hrow⟩ : Fin 160000) ch) ?_).trans ?_
  · rw [Shape.rowMajor_val_two, Shape.rowMajor_val_five]
    show (b.val * 40000 + (gxi.val * 200 + gyi.val)) * 80 + ch.val
        = (((b.val * 200 + gxi.val) * 200 + gyi.val) * 1 + 0) * 80 + ch.val
    omega
  -- the slice at offset (0, 0) keeps the row and the column
  refine (extractStridedSlice_apply _ _ _ _ (ix2 (⟨b.val * 40000 + (gxi.val * 200 + gyi.val), hrow'⟩ : Fin 160001) ch) ?_).trans ?_
  · intro a
    match a with
    | ⟨0, _⟩ => exact (Nat.zero_add _).symm
    | ⟨1, _⟩ => exact (Nat.zero_add _).symm
  -- the scatter-add onto zero rows: the sum of the updates landing at (row, ch)
  show Ideal.hostScatterAdd D _ _ _ (ix2 _ ch) = _
  unfold Ideal.hostScatterAdd
  rw [scatter_sum]
  show Ideal.ofBits .f32 0x00000000#32 + _ = _
  rw [Cert.Spec.zero_word, zero_add, ← Cert.Spec.scatter_sum_eq_pooled gx gy gz vm x _ hrow ch]
  refine Finset.sum_congr rfl fun n _ => ?_
  rw [idx_apply]
  rfl

end Cert.ReferenceIdeal.RefVal

end
-- ==== Proof.lean ====
/-
  Voxel pooling: every one of the 4·4·41·16·44 camera-frustum points of a batch carries 80 features and three
  integer cell coordinates; a point is KEPT when its cell lies in the 200 × 200 × 1 grid and the point is valid, and
  the result at (batch, feature, gx, gy) is a quarter of the sum of that feature over the kept points of cell
  (gx, gy) of the batch (Proof/Spec.lean, `Cert.Spec.OUT`).

  The kernel's program forms, per tile of 2048 points and per tile of 2000 voxels, the 0/1 matrix "voxel number =
  the point's cell number" and multiplies it with the tile's features, adding the product into a scratch
  accumulator over the 57 point tiles of a batch (dropped and padding points carry the word -1, which is no voxel
  number), and writes a quarter of the accumulator back after the last tile. The reference adds every point's
  features into the row of its GLOBAL cell number (batch·40000 + gx·200 + gy; dropped points go to a dummy row),
  drops the dummy row and divides by four. Over the extended reals both are the specification: a sum over a set of
  points does not depend on how it is grouped into tiles, a product with an indicator is a restriction of the sum,
  and a quarter is a division by four.

    Proof/Spec.lean, SpecBits.lean, SpecSum.lean   the specification and its laws (word arithmetic of the cell numbers; the tiled sum)
    Proof/Coords.lean                              the cell coordinates, one function of the geometry input on both sides
    Proof/KernelPre.lean, KernelBody.lean, KernelAcc.lean, KernelRun.lean   the kernel's side: the arrays the region finds, the body's three control cases, the accumulation over a column of the grid, the run
    Proof/RefStages.lean, RefRun.lean, RefVal.lean  the reference's side: its host stages, its run, its result at an index
-/
import proofs.«120953_j64415919505618_1_alg».proof.Defs
import proofs.«120953_j64415919505618_1_alg».proof.Proof.Gen.Kernel
import proofs.«120953_j64415919505618_1_alg».proof.Proof.Gen.Kernel.Frame
import proofs.«120953_j64415919505618_1_alg».proof.Proof.Gen.KernelIdeal
import proofs.«120953_j64415919505618_1_alg».proof.Proof.Gen.KernelIdeal.Frame
import proofs.«120953_j64415919505618_1_alg».proof.Proof.Gen.ReferenceIdeal
import proofs.«120953_j64415919505618_1_alg».proof.Proof.Gen.Pre_finite_inputs
import proofs.«120953_j64415919505618_1_alg».proof.Proof.KernelRun
import proofs.«120953_j64415919505618_1_alg».proof.Proof.RefRun
import proofs.«120953_j64415919505618_1_alg».proof.Proof.RefVal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run m ρ)

/-- Both programs end at the specification's function of the cell coordinates, the validity bits and the features
    of arguments that agree. -/
theorem algebraic : Cert.algebraic_KernelIdeal_ReferenceIdeal := by
  intro m ρ m' ρ' _ hagree
  refine ⟨fun c => Cert.Spec.OUT (Cert.KernelIdeal.Pre.gx m c) (Cert.KernelIdeal.Pre.gy m c) (Cert.KernelIdeal.Pre.gz m c)
    (Cert.KernelIdeal.Pre.vm m c) (Cert.KernelIdeal.Pre.xx m c), Cert.KernelIdeal.Run.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2]
  exact Cert.ReferenceIdeal.RefVal.tail_eq_OUT _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
